-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S1048576 : Shape := ⟨1, ![1048576]⟩
abbrev S64x128 : Shape := ⟨2, ![64, 128]⟩
abbrev S128 : Shape := ⟨1, ![128]⟩
abbrev S128x128 : Shape := ⟨2, ![128, 128]⟩
abbrev S256x256 : Shape := ⟨2, ![256, 256]⟩
abbrev S256 : Shape := ⟨1, ![256]⟩
abbrev S256x128 : Shape := ⟨2, ![256, 128]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S256 .f32) (main_arg14 : FVec F S256x128 .f32) (main_arg15 : FVec F S128 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x128 .f32 := Host.absf main_arg14
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg9 : FVec F S128 .f32) (main_arg10 : FVec F S128x128 .f32) (main_arg11 : FVec F S128 .f32) (main_arg12 : FVec F S256x256 .f32) (main_arg13 : FVec F S256 .f32) (main_arg14 : FVec F S256x128 .f32) (main_arg15 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x256 .f32 := Host.absf main_arg12
  let main_cst_18 : FVec F S_ .f32 := constant S_ .f32 0x7F800000#32
  let main_v50 : FVec F S256x256 .f32 := broadcastInDim S256x256 ![] bcast_S_S256x256 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S64x128 .f32) (main_arg9 : FVec F S128 .f32) (main_arg10 : FVec F S128x128 .f32) (main_arg11 : FVec F S128 .f32) (main_arg12 : FVec F S256x256 .f32) (main_arg13 : FVec F S256 .f32) (main_arg14 : FVec F S256x128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg8
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S1048576x64 .f32) (main_arg1 : FVec F S1048576x64 .f32) (main_arg2 : IVec S1048576 32) (main_arg3 : IVec S1048576 32) (main_arg4 : FVec F S64x128 .f32) (main_arg5 : FVec F S128 .f32) (main_arg6 : FVec F S128x128 .f32) (main_arg7 : FVec F S128 .f32) (main_arg8 : FVec F S64x128 .f32) (main_arg9 : FVec F S128 .f32) (main_arg10 : FVec F S128x128 .f32) (main_arg11 : FVec F S128 .f32) (main_arg12 : FVec F S256x256 .f32) (main_arg13 : FVec F S256 .f32) (main_arg14 : FVec F S256x128 .f32) (main_arg15 : FVec F S128 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S1048576x64 .f32 := Host.absf main_arg1
  let main_cst_0 : FVec F S_ .f32 := constant S_ .f32 0x7F800000#32
  let main_v5 : FVec F S1048576x64 .f32 := broadcastInDim S1048576x64 ![] bcast_S_S1048576x64 main_cst_0
  let main_v6 : IVec S1048576x64 1 := cmpf .olt main_v4 main_v5
  let main_c_1 : IVec S_ 1 := constantI S_ 1 1#1
  let main_v7 : IVec S_ 1 := (fun x v => Host.reduce IntOp.andi x v reducesTo_S1048576x64_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S1048576x64 : Shape := ⟨2, ![1048576, 64]⟩
abbrev S1048576 : Shape := ⟨1, ![1048576]⟩
abbrev S64x128 : Shape := ⟨2, ![64, 128]⟩
abbrev S128 : Shape := ⟨1, ![128]⟩
abbrev S128x128 : Shape := ⟨2, ![128, 128]⟩
abbrev S256x256 : Shape := ⟨2, ![256, 256]⟩
abbrev S256 : Shape := ⟨1, ![256]⟩
abbrev S256x128 : Shape := ⟨2, ![256, 128]⟩
abbrev S1x128 : Shape := ⟨2, ![1, 128]⟩
abbrev S1048576x128 : Shape := ⟨2, ![1048576, 128]⟩
abbrev S8192x64 : Shape := ⟨2, ![8192, 64]⟩
abbrev S8192x128 : Shape := ⟨2, ![8192, 128]⟩
abbrev S_ : Shape := ⟨0, ![]⟩
abbrev S65536x128 : Shape := ⟨2, ![65536, 128]⟩
abbrev S1048576x1 : Shape := ⟨2, ![1048576, 1]⟩
abbrev S65536 : Shape := ⟨1, ![65536]⟩
abbrev S65536x1 : Shape := ⟨2, ![65536, 1]⟩
abbrev S1x256 : Shape := ⟨2, ![1, 256]⟩
abbrev S128x256 : Shape := ⟨2, ![128, 256]⟩
abbrev S4096x128 : Shape := ⟨2, ![4096, 128]⟩
abbrev S4096x256 : Shape := ⟨2, ![4096, 256]⟩

abbrev nBuf : Space → Nat
  | .hbm => 59
  | .vmem => 27
  | .smem => 0
  | _ => 0

abbrev bufTy : (tb : Table) → Fin (tcTables nBuf tb) → BufTy
  | .hbm, ⟨0, _⟩ => ⟨S1048576x64, .f32⟩
  | .hbm, ⟨1, _⟩ => ⟨S1048576x64, .f32⟩
  | .hbm, ⟨2, _⟩ => ⟨S1048576, .i32⟩
  | .hbm, ⟨3, _⟩ => ⟨S1048576, .i32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S64x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S256x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S1x128, .f32⟩
  | .hbm, ⟨17, _⟩ => ⟨S1x128, .f32⟩
  | .hbm, ⟨18, _⟩ => ⟨S1048576x128, .bf16⟩
  | .hbm, ⟨19, _⟩ => ⟨S1048576x128, .bf16⟩
  | .hbm, ⟨20, _⟩ => ⟨S1048576x128, .f32⟩
  | .hbm, ⟨21, _⟩ => ⟨S1048576x128, .f32⟩
  | .hbm, ⟨22, _⟩ => ⟨S_, .f32⟩
  | .hbm, ⟨23, _⟩ => ⟨S65536x128, .f32⟩
  | .hbm, ⟨24, _⟩ => ⟨S1048576x1, .i32⟩
  | .hbm, ⟨25, _⟩ => ⟨S65536x128, .f32⟩
  | .hbm, ⟨26, _⟩ => ⟨S_, .f32⟩
  | .hbm, ⟨27, _⟩ => ⟨S65536x128, .f32⟩
  | .hbm, ⟨28, _⟩ => ⟨S1048576x1, .i32⟩
  | .hbm, ⟨29, _⟩ => ⟨S65536x128, .f32⟩
  | .hbm, ⟨30, _⟩ => ⟨S_, .f32⟩
  | .hbm, ⟨31, _⟩ => ⟨S1048576, .f32⟩
  | .hbm, ⟨32, _⟩ => ⟨S_, .f32⟩
  | .hbm, ⟨33, _⟩ => ⟨S65536, .f32⟩
  | .hbm, ⟨34, _⟩ => ⟨S1048576x1, .i32⟩
  | .hbm, ⟨35, _⟩ => ⟨S65536, .f32⟩
  | .hbm, ⟨36, _⟩ => ⟨S_, .f32⟩
  | .hbm, ⟨37, _⟩ => ⟨S65536, .f32⟩
  | .hbm, ⟨38, _⟩ => ⟨S1048576x1, .i32⟩
  | .hbm, ⟨39, _⟩ => ⟨S65536, .f32⟩
  | .hbm, ⟨40, _⟩ => ⟨S_, .f32⟩
  | .hbm, ⟨41, _⟩ => ⟨S65536, .f32⟩
  | .hbm, ⟨42, _⟩ => ⟨S65536, .f32⟩
  | .hbm, ⟨43, _⟩ => ⟨S65536x1, .f32⟩
  | .hbm, ⟨44, _⟩ => ⟨S65536x128, .f32⟩
  | .hbm, ⟨45, _⟩ => ⟨S65536x128, .f32⟩
  | .hbm, ⟨46, _⟩ => ⟨S_, .f32⟩
  | .hbm, ⟨47, _⟩ => ⟨S65536, .f32⟩
  | .hbm, ⟨48, _⟩ => ⟨S65536, .f32⟩
  | .hbm, ⟨49, _⟩ => ⟨S65536x1, .f32⟩
  | .hbm, ⟨50, _⟩ => ⟨S65536x128, .f32⟩
  | .hbm, ⟨51, _⟩ => ⟨S65536x128, .f32⟩
  | .hbm, ⟨52, _⟩ => ⟨S1x128, .f32⟩
  | .hbm, ⟨53, _⟩ => ⟨S1x128, .f32⟩
  | .hbm, ⟨54, _⟩ => ⟨S1x256, .f32⟩
  | .hbm, ⟨55, _⟩ => ⟨S1x128, .f32⟩
  | .hbm, ⟨56, _⟩ => ⟨S128x256, .f32⟩
  | .hbm, ⟨57, _⟩ => ⟨S128x256, .f32⟩
  | .hbm, ⟨58, _⟩ => ⟨S65536x128, .f32⟩
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S1x128, .f32⟩
  | .local _ .vmem, ⟨8, _⟩ => ⟨S8192x128, .bf16⟩
  | .local _ .vmem, ⟨9, _⟩ => ⟨S8192x128, .bf16⟩
  | .local _ .vmem, ⟨10, _⟩ => ⟨S8192x128, .bf16⟩
  | .local _ .vmem, ⟨11, _⟩ => ⟨S8192x128, .bf16⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S128x256, .f32⟩
  | .local _ .vmem, ⟨21, _⟩ => ⟨S128x256, .f32⟩
  | .local _ .vmem, ⟨22, _⟩ => ⟨S1x256, .f32⟩
  | .local _ .vmem, ⟨23, _⟩ => ⟨S256x128, .f32⟩
  | .local _ .vmem, ⟨24, _⟩ => ⟨S1x128, .f32⟩
  | .local _ .vmem, ⟨25, _⟩ => ⟨S4096x128, .f32⟩
  | .local _ .vmem, ⟨26, _⟩ => ⟨S4096x128, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2_0 : Ref sig .tc := ⟨.hbm, 18, rfl⟩
abbrev main_v2_1 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg11_0 : Ref sig .tc := ⟨.vmem, 25, rfl⟩
abbrev cc1_stg11_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem11_1 : DmaSem sig := 26

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S4096x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  shapeCasts_S128_S1x128 : S128.ShapeCasts S1x128
  inb_S8192x64_S8192x64_0_0 : ∀ a, (![0, 0] : Fin 2 → Nat) a + S8192x64.size a ≤ S8192x64.size a
  h_S8192x64 : 0 < S8192x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  packedbf16_S8192x128_S8192x128_0_0 : (Rect.unit (s := S8192x128) ![0, 0] S8192x128.size inb_S8192x128_S8192x128_0_0).PackedRows (EltTy.packing .bf16)
  bcast_S_S65536x128 : S_.BroadcastsInDim S65536x128 (![] : Fin 0 → Fin S65536x128.rank)
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x128_0_1 : S65536x1.BroadcastsInDim S65536x128 (![0, 1] : Fin 2 → Fin S65536x128.rank)
  shapeCasts_S256_S1x256 : S256.ShapeCasts S1x256
  slices_S256x256_S128x256_0_0 : S256x256.Slices ![0, 0] S128x256
  slices_S256x256_S128x256_128_0 : S256x256.Slices ![128, 0] S128x256
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  broadcasts_S1x128_S4096x128 : S1x128.Broadcasts S4096x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x128_S256x128_0_0 : ∀ a, (![0, 0] : Fin 2 → Nat) a + S256x128.size a ≤ S256x128.size a
  h_S256x128 : 0 < S256x128.numel
  dot_S8192x64_S64x128_S8192x128_1_0_0_1_n_n_wf : DotDims.WF S8192x64 S64x128 S8192x128 [1] [0] [0] [1] [] []
  scatter_S65536x128_S1048576x1_S1048576x128_1_0_0_1_wf : ScatterDims.WF S65536x128 S1048576x1 S1048576x128 [1] [0] [0] 1
  scatter_S65536_S1048576x1_S1048576_n_0_0_1_wf : ScatterDims.WF S65536 S1048576x1 S1048576 [] [0] [0] 1
  dot_S4096x128_S128x128_S4096x128_1_0_0_1_n_n_wf : DotDims.WF S4096x128 S128x128 S4096x128 [1] [0] [0] [1] [] []
  dot_S4096x128_S128x256_S4096x256_1_0_0_1_n_n_wf : DotDims.WF S4096x128 S128x256 S4096x256 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1048576x64.size a
  hwx0_0 : ∀ i : grid0.Coords, EltTy.bits .f32 = 32 ∨ (Rect.block (s := S1048576x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S1048576x64.size a
  hwx0_1 : ∀ i : grid0.Coords, EltTy.bits .f32 = 32 ∨ (Rect.block (s := S1048576x64) S8192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192x128.size a ≤ S1048576x128.size a
  hwx0_6 : ∀ i : grid0.Coords, EltTy.bits .bf16 = 32 ∨ (Rect.block (s := S1048576x128) S8192x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x128.size a ≤ S1048576x128.size a
  hwx0_7 : ∀ i : grid0.Coords, EltTy.bits .bf16 = 32 ∨ (Rect.block (s := S1048576x128) S8192x128.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S65536x128.size a
  hwx1_0 : ∀ i : grid1.Coords, EltTy.bits .f32 = 32 ∨ (Rect.block (s := S65536x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S65536x128.size a
  hwx1_1 : ∀ i : grid1.Coords, EltTy.bits .f32 = 32 ∨ (Rect.block (s := S65536x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x256.size a ≤ S128x256.size a
  hwx1_6 : ∀ i : grid1.Coords, EltTy.bits .f32 = 32 ∨ (Rect.block (s := S128x256) S128x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x256.size a ≤ S128x256.size a
  hwx1_7 : ∀ i : grid1.Coords, EltTy.bits .f32 = 32 ∨ (Rect.block (s := S128x256) S128x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x128.size a ≤ S256x128.size a
  hwx1_9 : ∀ i : grid1.Coords, EltTy.bits .f32 = 32 ∨ (Rect.block (s := S256x128) S256x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S4096x128.size a ≤ S65536x128.size a
  hwx1_11 : ∀ i : grid1.Coords, EltTy.bits .f32 = 32 ∨ (Rect.block (s := S65536x128) S4096x128.size (cc1_transform_11 i) (hinb1_11 i)).WholeWords (EltTy.packing .f32)

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def scatter_S65536x128_S1048576x1_S1048576x128_1_0_0_1 : ScatterDims S65536x128 S1048576x1 S1048576x128 where
  updateWindowDims := [1]
  insertedWindowDims := [0]
  scatterDimsToOperandDims := [0]
  indexVectorDim := 1
  wf := scatter_S65536x128_S1048576x1_S1048576x128_1_0_0_1_wf
def scatter_S65536_S1048576x1_S1048576_n_0_0_1 : ScatterDims S65536 S1048576x1 S1048576 where
  updateWindowDims := []
  insertedWindowDims := [0]
  scatterDimsToOperandDims := [0]
  indexVectorDim := 1
  wf := scatter_S65536_S1048576x1_S1048576_n_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S8192x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S8192x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v22) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S128x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S128x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg14) S256x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v31) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v34) S4096x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S1048576x64 : Shape := ⟨2, ![1048576, 64]⟩
abbrev S1048576 : Shape := ⟨1, ![1048576]⟩
abbrev S64x128 : Shape := ⟨2, ![64, 128]⟩
abbrev S128 : Shape := ⟨1, ![128]⟩
abbrev S128x128 : Shape := ⟨2, ![128, 128]⟩
abbrev S256x256 : Shape := ⟨2, ![256, 256]⟩
abbrev S256 : Shape := ⟨1, ![256]⟩
abbrev S256x128 : Shape := ⟨2, ![256, 128]⟩
abbrev S1048576x128 : Shape := ⟨2, ![1048576, 128]⟩
abbrev S1x128 : Shape := ⟨2, ![1, 128]⟩
abbrev S_ : Shape := ⟨0, ![]⟩
abbrev S65536x128 : Shape := ⟨2, ![65536, 128]⟩
abbrev S1048576x1 : Shape := ⟨2, ![1048576, 1]⟩
abbrev S65536 : Shape := ⟨1, ![65536]⟩
abbrev S65536x1 : Shape := ⟨2, ![65536, 1]⟩
abbrev S65536x256 : Shape := ⟨2, ![65536, 256]⟩
abbrev S1x256 : Shape := ⟨2, ![1, 256]⟩

abbrev nBuf : Space → Nat
  | .hbm => 88
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S1048576x64, .f32⟩
  | .hbm, ⟨2, _⟩ => ⟨S1048576, .i32⟩
  | .hbm, ⟨3, _⟩ => ⟨S1048576, .i32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S64x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S256x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S1048576x128, .f32⟩
  | .hbm, ⟨17, _⟩ => ⟨S1x128, .f32⟩
  | .hbm, ⟨18, _⟩ => ⟨S1048576x128, .f32⟩
  | .hbm, ⟨19, _⟩ => ⟨S1048576x128, .f32⟩
  | .hbm, ⟨20, _⟩ => ⟨S_, .f32⟩
  | .hbm, ⟨21, _⟩ => ⟨S1048576x128, .f32⟩
  | .hbm, ⟨22, _⟩ => ⟨S1048576x128, .f32⟩
  | .hbm, ⟨23, _⟩ => ⟨S_, .f32⟩
  | .hbm, ⟨24, _⟩ => ⟨S65536x128, .f32⟩
  | .hbm, ⟨25, _⟩ => ⟨S1048576x1, .i32⟩
  | .hbm, ⟨26, _⟩ => ⟨S65536x128, .f32⟩
  | .hbm, ⟨27, _⟩ => ⟨S_, .f32⟩
  | .hbm, ⟨28, _⟩ => ⟨S1048576, .f32⟩
  | .hbm, ⟨29, _⟩ => ⟨S_, .f32⟩
  | .hbm, ⟨30, _⟩ => ⟨S65536, .f32⟩
  | .hbm, ⟨31, _⟩ => ⟨S1048576x1, .i32⟩
  | .hbm, ⟨32, _⟩ => ⟨S65536, .f32⟩
  | .hbm, ⟨33, _⟩ => ⟨S_, .f32⟩
  | .hbm, ⟨34, _⟩ => ⟨S65536, .f32⟩
  | .hbm, ⟨35, _⟩ => ⟨S65536, .f32⟩
  | .hbm, ⟨36, _⟩ => ⟨S65536x1, .f32⟩
  | .hbm, ⟨37, _⟩ => ⟨S65536x128, .f32⟩
  | .hbm, ⟨38, _⟩ => ⟨S65536x128, .f32⟩
  | .hbm, ⟨39, _⟩ => ⟨S65536x128, .f32⟩
  | .hbm, ⟨40, _⟩ => ⟨S1x128, .f32⟩
  | .hbm, ⟨41, _⟩ => ⟨S65536x128, .f32⟩
  | .hbm, ⟨42, _⟩ => ⟨S65536x128, .f32⟩
  | .hbm, ⟨43, _⟩ => ⟨S_, .f32⟩
  | .hbm, ⟨44, _⟩ => ⟨S65536x128, .f32⟩
  | .hbm, ⟨45, _⟩ => ⟨S65536x128, .f32⟩
  | .hbm, ⟨46, _⟩ => ⟨S1048576x128, .f32⟩
  | .hbm, ⟨47, _⟩ => ⟨S1x128, .f32⟩
  | .hbm, ⟨48, _⟩ => ⟨S1048576x128, .f32⟩
  | .hbm, ⟨49, _⟩ => ⟨S1048576x128, .f32⟩
  | .hbm, ⟨50, _⟩ => ⟨S_, .f32⟩
  | .hbm, ⟨51, _⟩ => ⟨S1048576x128, .f32⟩
  | .hbm, ⟨52, _⟩ => ⟨S1048576x128, .f32⟩
  | .hbm, ⟨53, _⟩ => ⟨S_, .f32⟩
  | .hbm, ⟨54, _⟩ => ⟨S65536x128, .f32⟩
  | .hbm, ⟨55, _⟩ => ⟨S1048576x1, .i32⟩
  | .hbm, ⟨56, _⟩ => ⟨S65536x128, .f32⟩
  | .hbm, ⟨57, _⟩ => ⟨S_, .f32⟩
  | .hbm, ⟨58, _⟩ => ⟨S1048576, .f32⟩
  | .hbm, ⟨59, _⟩ => ⟨S_, .f32⟩
  | .hbm, ⟨60, _⟩ => ⟨S65536, .f32⟩
  | .hbm, ⟨61, _⟩ => ⟨S1048576x1, .i32⟩
  | .hbm, ⟨62, _⟩ => ⟨S65536, .f32⟩
  | .hbm, ⟨63, _⟩ => ⟨S_, .f32⟩
  | .hbm, ⟨64, _⟩ => ⟨S65536, .f32⟩
  | .hbm, ⟨65, _⟩ => ⟨S65536, .f32⟩
  | .hbm, ⟨66, _⟩ => ⟨S65536x1, .f32⟩
  | .hbm, ⟨67, _⟩ => ⟨S65536x128, .f32⟩
  | .hbm, ⟨68, _⟩ => ⟨S65536x128, .f32⟩
  | .hbm, ⟨69, _⟩ => ⟨S65536x128, .f32⟩
  | .hbm, ⟨70, _⟩ => ⟨S1x128, .f32⟩
  | .hbm, ⟨71, _⟩ => ⟨S65536x128, .f32⟩
  | .hbm, ⟨72, _⟩ => ⟨S65536x128, .f32⟩
  | .hbm, ⟨73, _⟩ => ⟨S_, .f32⟩
  | .hbm, ⟨74, _⟩ => ⟨S65536x128, .f32⟩
  | .hbm, ⟨75, _⟩ => ⟨S65536x128, .f32⟩
  | .hbm, ⟨76, _⟩ => ⟨S65536x256, .f32⟩
  | .hbm, ⟨77, _⟩ => ⟨S65536x256, .f32⟩
  | .hbm, ⟨78, _⟩ => ⟨S1x256, .f32⟩
  | .hbm, ⟨79, _⟩ => ⟨S65536x256, .f32⟩
  | .hbm, ⟨80, _⟩ => ⟨S65536x256, .f32⟩
  | .hbm, ⟨81, _⟩ => ⟨S_, .f32⟩
  | .hbm, ⟨82, _⟩ => ⟨S65536x256, .f32⟩
  | .hbm, ⟨83, _⟩ => ⟨S65536x256, .f32⟩
  | .hbm, ⟨84, _⟩ => ⟨S65536x128, .f32⟩
  | .hbm, ⟨85, _⟩ => ⟨S1x128, .f32⟩
  | .hbm, ⟨86, _⟩ => ⟨S65536x128, .f32⟩
  | .hbm, ⟨87, _⟩ => ⟨S65536x128, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call1_cst : Ref sig .tc := ⟨.hbm, 43, rfl⟩
abbrev main_call1_v0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_call2_cst : Ref sig .tc := ⟨.hbm, 50, rfl⟩
abbrev main_call2_v0 : Ref sig .tc := ⟨.hbm, 51, rfl⟩
abbrev main_v26 : Ref sig .tc := ⟨.hbm, 52, rfl⟩
abbrev main_cst_3 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_4 : Ref sig .tc := ⟨.hbm, 57, rfl⟩
abbrev main_v30 : Ref sig .tc := ⟨.hbm, 58, rfl⟩
abbrev main_cst_5 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_6 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_call3_cst : Ref sig .tc := ⟨.hbm, 73, rfl⟩
abbrev main_call3_v0 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_call4_cst : Ref sig .tc := ⟨.hbm, 81, rfl⟩
abbrev main_call4_v0 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  bcast_S_S1048576x128 : S_.BroadcastsInDim S1048576x128 (![] : Fin 0 → Fin S1048576x128.rank)
  bcast_S_S65536x128 : S_.BroadcastsInDim S65536x128 (![] : Fin 0 → Fin S65536x128.rank)
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x128_0_1 : S65536x1.BroadcastsInDim S65536x128 (![0, 1] : Fin 2 → Fin S65536x128.rank)
  bcast_S1x128_S65536x128_0_1 : S1x128.BroadcastsInDim S65536x128 (![0, 1] : Fin 2 → Fin S65536x128.rank)
  concatenates_S65536x128_S65536x128_S65536x256_d1 : Shape.Concatenates [S65536x128, S65536x128] S65536x256 1
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  dot_S1048576x64_S64x128_S1048576x128_1_0_0_1_n_n_wf : DotDims.WF S1048576x64 S64x128 S1048576x128 [1] [0] [0] [1] [] []
  scatter_S65536x128_S1048576x1_S1048576x128_1_0_0_1_wf : ScatterDims.WF S65536x128 S1048576x1 S1048576x128 [1] [0] [0] 1
  scatter_S65536_S1048576x1_S1048576_n_0_0_1_wf : ScatterDims.WF S65536 S1048576x1 S1048576 [] [0] [0] 1
  dot_S65536x128_S128x128_S65536x128_1_0_0_1_n_n_wf : DotDims.WF S65536x128 S128x128 S65536x128 [1] [0] [0] [1] [] []
  dot_S65536x256_S256x256_S65536x256_1_0_0_1_n_n_wf : DotDims.WF S65536x256 S256x256 S65536x256 [1] [0] [0] [1] [] []
  dot_S65536x256_S256x128_S65536x128_1_0_0_1_n_n_wf : DotDims.WF S65536x256 S256x128 S65536x128 [1] [0] [0] [1] [] []

variable [Facts₀]

def dot_S1048576x64_S64x128_S1048576x128_1_0_0_1_n_n : DotDims S1048576x64 S64x128 S1048576x128 where
  lhsContracting := [1]
  rhsContracting := [0]
  lhsNonContracting := [0]
  rhsNonContracting := [1]
  lhsBatch := []
  rhsBatch := []
  wf := dot_S1048576x64_S64x128_S1048576x128_1_0_0_1_n_n_wf
def scatter_S65536x128_S1048576x1_S1048576x128_1_0_0_1 : ScatterDims S65536x128 S1048576x1 S1048576x128 where
  updateWindowDims := [1]
  insertedWindowDims := [0]
  scatterDimsToOperandDims := [0]
  indexVectorDim := 1
  wf := scatter_S65536x128_S1048576x1_S1048576x128_1_0_0_1_wf
def scatter_S65536_S1048576x1_S1048576_n_0_0_1 : ScatterDims S65536 S1048576x1 S1048576 where
  updateWindowDims := []
  insertedWindowDims := [0]
  scatterDimsToOperandDims := [0]
  indexVectorDim := 1
  wf := scatter_S65536_S1048576x1_S1048576_n_0_0_1_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf

class Facts : Prop extends Facts₀ where

variable [Facts]
-- ==== Proof.KernelRun.lean ====
/-
  The run of the two-stage program with its result kept.

  The program is four stretches: host operations, the first stage (the per-node layer of both eyes, one block of
  8192 nodes per grid point), host operations (the per-segment averaging and the re-laid weights), and the second
  stage (the perceptron, one block of 4096 segments per grid point).  The contents of every buffer at each boundary
  are a fold from the launch memory: a host stretch applies its operations, a stage replaces its arrays by what its
  write-backs leave.  Every weakly fair execution terminates without a fault, and at the end every buffer holds the
  last boundary's contents.  Stated here of the result array as well as of the sixteen argument arrays: the result
  array ends at the last boundary's contents, the arguments as launched.
-/
import proofs.«131063_j79010218377372_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result array ends at the last boundary's contents
    and every argument array as launched. -/
theorem run : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c)⟩)

end Cert.KernelIdeal.Result

end
-- ==== Proof.Layers.lean ====
/-
  The mathematics both programs compute, entry by entry, on the extended reals.

  Each "eye" first applies a dense layer and the positive part to every node: entry (p, u) is
  max (Σ_k x (p, k) · W (k, u) + b u, 0).  The nodes are then averaged per segment; that averaging is one and
  the same chain of operations in both programs and is not opened here.  On the two arrays of segment means a
  three-layer perceptron follows: a dense layer with positive part per eye (128 features each), a hidden layer of
  256 units fed by the 256 features of both eyes, and a linear output layer.

  The hidden layer is written the way one of the programs computes it: the first eye's 128 features against one
  128 × 256 weight array (the low band: rows 0 … 127 of the 256 × 256 hidden weights), plus the second eye's 128
  features against another (the high band: rows 128 … 255).  The other program lays the features side by side and
  contracts all 256 rows at once; the two agree because a sum over 256 indices is the sum over the first 128 plus the
  sum over the last 128 (`sum_two_bands`), which needs only that addition is commutative and associative — true of
  the extended reals, infinities included.

  An entry (p, u) of either layer depends on its input only through row p (`denseReluAt_row`, `mlpAt_row`): this is
  what lets a program compute the layer one block of rows at a time.

  Nothing here knows a program.
-/
import Idealize.ShloMosaic.Lib.ValueIdx
import Idealize.ShloMosaic.PureOps.Ideal.Laws

noncomputable section

open scoped BigOperators

namespace Cert.EyeMlp

open Idealize.ShloMosaic Idealize.ShloMosaic.ValueIdx

/-- The float word of all zero bits read as an extended real.  Both programs carry this same word wherever they
    take a positive part, so it is never evaluated. -/
abbrev zeroWord : EReal := Ideal.ofBits .f32 0x00000000#32

section Dense

variable {a K n : ℕ}

/-- One entry of a dense layer followed by the positive part: max (Σ_k x (p, k) · W (k, u) + b u, 0). -/
def denseReluAt (x : (⟨2, ![a, K]⟩ : Shape).Idx → EReal) (W : (⟨2, ![K, n]⟩ : Shape).Idx → EReal) (b : Fin n → EReal)
    (p : Fin a) (u : Fin n) : EReal :=
  max ((∑ k : Fin K, x (ix2 p k) * W (ix2 k u)) + b u) zeroWord

/-- The layer as an a × n array. -/
def denseRelu (x : (⟨2, ![a, K]⟩ : Shape).Idx → EReal) (W : (⟨2, ![K, n]⟩ : Shape).Idx → EReal) (b : Fin n → EReal) :
    (⟨2, ![a, n]⟩ : Shape).Idx → EReal :=
  fun i => denseReluAt x W b (i 0) (i 1)

theorem denseRelu_ix2 (x : (⟨2, ![a, K]⟩ : Shape).Idx → EReal) (W : (⟨2, ![K, n]⟩ : Shape).Idx → EReal) (b : Fin n → EReal)
    (p : Fin a) (u : Fin n) : denseRelu x W b (ix2 p u) = denseReluAt x W b p u := rfl

/-- Entry (p, u) of the layer sees only row p of the input: two inputs that agree on a row give the same entry. -/
theorem denseReluAt_row {a' : ℕ} (x : (⟨2, ![a, K]⟩ : Shape).Idx → EReal) (x' : (⟨2, ![a', K]⟩ : Shape).Idx → EReal)
    (W : (⟨2, ![K, n]⟩ : Shape).Idx → EReal) (b : Fin n → EReal) (p : Fin a) (p' : Fin a')
    (h : ∀ k : Fin K, x (ix2 p k) = x' (ix2 p' k)) (u : Fin n) : denseReluAt x W b p u = denseReluAt x' W b p' u := by
  unfold denseReluAt
  simp only [h]

end Dense

/-- A sum over 256 indices is the sum over the first 128 plus the sum over the last 128. -/
theorem sum_two_bands {M : Type*} [AddCommMonoid M] (f : Fin 256 → M) :
    ∑ j : Fin 256, f j = (∑ k : Fin 128, f (Fin.castAdd 128 k)) + ∑ k : Fin 128, f (Fin.natAdd 128 k) :=
  Fin.sum_univ_add (a := 128) (b := 128) f

/-- Rows 0 … 127 of a 256 × 256 array, as a 128 × 256 array. -/
def lowBand (W : (⟨2, ![256, 256]⟩ : Shape).Idx → EReal) : (⟨2, ![128, 256]⟩ : Shape).Idx → EReal :=
  fun i => W (ix2 (Fin.castAdd 128 (i 0)) (i 1))

/-- Rows 128 … 255 of a 256 × 256 array, as a 128 × 256 array. -/
def highBand (W : (⟨2, ![256, 256]⟩ : Shape).Idx → EReal) : (⟨2, ![128, 256]⟩ : Shape).Idx → EReal :=
  fun i => W (ix2 (Fin.natAdd 128 (i 0)) (i 1))

section Perceptron

variable {B : ℕ}

/-- Hidden unit j of segment p: the first eye's features against the low band of the hidden weights, plus the second
    eye's features against the high band, plus the bias, positive part. -/
def hiddenAt (m0 m1 : (⟨2, ![B, 128]⟩ : Shape).Idx → EReal)
    (Wc0 : (⟨2, ![128, 128]⟩ : Shape).Idx → EReal) (bc0 : Fin 128 → EReal)
    (Wc1 : (⟨2, ![128, 128]⟩ : Shape).Idx → EReal) (bc1 : Fin 128 → EReal)
    (Wlo Whi : (⟨2, ![128, 256]⟩ : Shape).Idx → EReal) (bb1 : Fin 256 → EReal) (p : Fin B) (j : Fin 256) : EReal :=
  max (((∑ k : Fin 128, denseReluAt m0 Wc0 bc0 p k * Wlo (ix2 k j))
        + ∑ k : Fin 128, denseReluAt m1 Wc1 bc1 p k * Whi (ix2 k j)) + bb1 j) zeroWord

/-- Output u of segment p: the hidden units against the output weights, plus the bias. -/
def mlpAt (m0 m1 : (⟨2, ![B, 128]⟩ : Shape).Idx → EReal)
    (Wc0 : (⟨2, ![128, 128]⟩ : Shape).Idx → EReal) (bc0 : Fin 128 → EReal)
    (Wc1 : (⟨2, ![128, 128]⟩ : Shape).Idx → EReal) (bc1 : Fin 128 → EReal)
    (Wlo Whi : (⟨2, ![128, 256]⟩ : Shape).Idx → EReal) (bb1 : Fin 256 → EReal)
    (Wb2 : (⟨2, ![256, 128]⟩ : Shape).Idx → EReal) (bb2 : Fin 128 → EReal) (p : Fin B) (u : Fin 128) : EReal :=
  (∑ j : Fin 256, hiddenAt m0 m1 Wc0 bc0 Wc1 bc1 Wlo Whi bb1 p j * Wb2 (ix2 j u)) + bb2 u

/-- The perceptron's output as a B × 128 array. -/
def mlp (m0 m1 : (⟨2, ![B, 128]⟩ : Shape).Idx → EReal)
    (Wc0 : (⟨2, ![128, 128]⟩ : Shape).Idx → EReal) (bc0 : Fin 128 → EReal)
    (Wc1 : (⟨2, ![128, 128]⟩ : Shape).Idx → EReal) (bc1 : Fin 128 → EReal)
    (Wlo Whi : (⟨2, ![128, 256]⟩ : Shape).Idx → EReal) (bb1 : Fin 256 → EReal)
    (Wb2 : (⟨2, ![256, 128]⟩ : Shape).Idx → EReal) (bb2 : Fin 128 → EReal) : (⟨2, ![B, 128]⟩ : Shape).Idx → EReal :=
  fun i => mlpAt m0 m1 Wc0 bc0 Wc1 bc1 Wlo Whi bb1 Wb2 bb2 (i 0) (i 1)

theorem mlp_ix2 (m0 m1 : (⟨2, ![B, 128]⟩ : Shape).Idx → EReal)
    (Wc0 : (⟨2, ![128, 128]⟩ : Shape).Idx → EReal) (bc0 : Fin 128 → EReal)
    (Wc1 : (⟨2, ![128, 128]⟩ : Shape).Idx → EReal) (bc1 : Fin 128 → EReal)
    (Wlo Whi : (⟨2, ![128, 256]⟩ : Shape).Idx → EReal) (bb1 : Fin 256 → EReal)
    (Wb2 : (⟨2, ![256, 128]⟩ : Shape).Idx → EReal) (bb2 : Fin 128 → EReal) (p : Fin B) (u : Fin 128) :
    mlp m0 m1 Wc0 bc0 Wc1 bc1 Wlo Whi bb1 Wb2 bb2 (ix2 p u) = mlpAt m0 m1 Wc0 bc0 Wc1 bc1 Wlo Whi bb1 Wb2 bb2 p u := rfl

/-- Output u of segment p sees only row p of each array of means. -/
theorem mlpAt_row {B' : ℕ} (m0 m1 : (⟨2, ![B, 128]⟩ : Shape).Idx → EReal) (m0' m1' : (⟨2, ![B', 128]⟩ : Shape).Idx → EReal)
    (Wc0 : (⟨2, ![128, 128]⟩ : Shape).Idx → EReal) (bc0 : Fin 128 → EReal)
    (Wc1 : (⟨2, ![128, 128]⟩ : Shape).Idx → EReal) (bc1 : Fin 128 → EReal)
    (Wlo Whi : (⟨2, ![128, 256]⟩ : Shape).Idx → EReal) (bb1 : Fin 256 → EReal)
    (Wb2 : (⟨2, ![256, 128]⟩ : Shape).Idx → EReal) (bb2 : Fin 128 → EReal) (p : Fin B) (p' : Fin B')
    (h0 : ∀ k : Fin 128, m0 (ix2 p k) = m0' (ix2 p' k)) (h1 : ∀ k : Fin 128, m1 (ix2 p k) = m1' (ix2 p' k)) (u : Fin 128) :
    mlpAt m0 m1 Wc0 bc0 Wc1 bc1 Wlo Whi bb1 Wb2 bb2 p u = mlpAt m0' m1' Wc0 bc0 Wc1 bc1 Wlo Whi bb1 Wb2 bb2 p' u := by
  unfold mlpAt hiddenAt
  simp only [denseReluAt_row m0 m0' Wc0 bc0 p p' h0, denseReluAt_row m1 m1' Wc1 bc1 p p' h1]

end Perceptron

end Cert.EyeMlp

end
-- ==== Proof.LibRowsProduct.lean ====
/-
  The product of an a × K array by a K × b array with the one axis of extent K contracted, read at the entry
  (p, u) on the extended reals: the finite sum over k of lhs (p, k) · rhs (k, u).  Two spellings of the same
  sum are read: the product a kernel forms into the zero accumulator, and the host's general dot product, which
  has no accumulator.  The operands may be typed at any float formats (on the extended reals a format is only a
  label).  The dimension record enters through its contracted rank and extent and four facts about where it
  sends an output index and a contraction index; nothing here knows a program.
-/
import Idealize.ShloMosaic.Lib.ValueIdx
import Idealize.ShloMosaic.PureOps.Ideal.Laws

noncomputable section

open scoped BigOperators

namespace Cert.RowsProduct

open Idealize.ShloMosaic Idealize.ShloMosaic.ValueIdx

variable {a K b : ℕ} {φ₁ φ₂ : FTy}

/-- With the left operand's rows following the output's rows, the right operand's columns following the output's
    columns, and the contracted coordinate running along the left operand's columns and the right operand's rows,
    the two operand indices at output entry (p, u) and contraction coordinate k are (p, k) and (k, u). -/
theorem operand_indices (D : DotDims ⟨2, ![a, K]⟩ ⟨2, ![K, b]⟩ ⟨2, ![a, b]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin a) (u : Fin b) (k : Fin K) :
    D.lhsIdx (ix2 p u) ((contrEquiv1 D K hr hs).symm k) = ix2 p k
      ∧ D.rhsIdx (ix2 p u) ((contrEquiv1 D K hr hs).symm k) = ix2 k u := by
  have hk := contrEquiv1_symm_val D K hr hs k
  refine ⟨funext fun ax => Fin.ext ?_, funext fun ax => Fin.ext ?_⟩
  · match ax with
    | ⟨0, _⟩ => exact hl0 _ _
    | ⟨1, _⟩ => exact (hl1 _ _).trans hk
  · match ax with
    | ⟨0, _⟩ => exact (hr0 _ _).trans hk
    | ⟨1, _⟩ => exact hr1 _ _

/-- The product into the zero accumulator, at entry (p, u), is Σ_k lhs (p, k) · rhs (k, u). -/
theorem matmul_zero_rows_apply (D : DotDims ⟨2, ![a, K]⟩ ⟨2, ![K, b]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.matmul D prec lhs rhs (constant ⟨2, ![a, b]⟩ .f32 0x00000000#32) (ix2 p u)
      = ∑ k : Fin K, lhs (ix2 p k) * rhs (ix2 k u) := by
  rw [Ideal.matmul_constant_zero_apply, ← Equiv.sum_comp (contrEquiv1 D K hr hs).symm]
  refine Finset.sum_congr rfl fun k _ => ?_
  obtain ⟨el, er⟩ := operand_indices D hr hs hl0 hl1 hr0 hr1 p u k
  rw [el, er]

/-- The host's general dot product, at entry (p, u), is the same sum, whatever its schedule key. -/
theorem dotGeneral_rows_apply (D : DotDims ⟨2, ![a, K]⟩ ⟨2, ![K, b]⟩ ⟨2, ![a, b]⟩) (prec : Option ContractPrecision)
    (sched : HostSchedule)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.dotGeneral D prec sched lhs rhs (ix2 p u) = ∑ k : Fin K, lhs (ix2 p k) * rhs (ix2 k u) := by
  rw [Ideal.dotGeneral_apply, ← Equiv.sum_comp (contrEquiv1 D K hr hs).symm]
  refine Finset.sum_congr rfl fun k _ => ?_
  obtain ⟨el, er⟩ := operand_indices D hr hs hl0 hl1 hr0 hr1 p u k
  rw [el, er]

end Cert.RowsProduct

end
-- ==== Proof.Products.lean ====
/-
  The four matrix products the two stages form, each into the zero accumulator, read at an entry (p, u) on the
  extended reals: Σ_k lhs (p, k) · rhs (k, u).  In each product the left operand's rows follow the output's rows, the
  right operand's columns follow the output's columns, and the one contracted coordinate runs along the left
  operand's columns and the right operand's rows; the four facts below say so for each product's dimensions, and the
  sum then follows from the general lemma for such a product.  The operands' float formats are free: on the extended
  reals a format is only a label.
-/
import proofs.«131063_j79010218377372_2_alg».proof.Proof.Gen.KernelIdeal
import proofs.«131063_j79010218377372_2_alg».proof.Proof.LibRowsProduct

noncomputable section

open scoped BigOperators

namespace Cert.KernelIdeal.Products

open Cert.KernelIdeal Cert.KernelIdeal.Gen Idealize.ShloMosaic Idealize.ShloMosaic.ValueIdx

/-! ## the per-node layer's product: 8192 nodes by 64 inputs against 64 by 128 weights -/

theorem nodes_l0 (i : S8192x128.Idx) (q : dot_S8192x64_S64x128_S8192x128_1_0_0_1_n_n.contr.Idx) : (dot_S8192x64_S64x128_S8192x128_1_0_0_1_n_n.lhsIdx i q 0).val = (i 0).val := by
  unfold DotDims.lhsIdx
  rw [dif_neg (show ¬(0 : Fin S8192x64.rank) ∈ dot_S8192x64_S64x128_S8192x128_1_0_0_1_n_n.lhsBatch by decide), dif_pos (show (0 : Fin S8192x64.rank) ∈ dot_S8192x64_S64x128_S8192x128_1_0_0_1_n_n.lhsNonContracting by decide)]
  rfl
theorem nodes_l1 (i : S8192x128.Idx) (q : dot_S8192x64_S64x128_S8192x128_1_0_0_1_n_n.contr.Idx) : (dot_S8192x64_S64x128_S8192x128_1_0_0_1_n_n.lhsIdx i q 1).val = (q ⟨0, by decide⟩).val :=
  dot_S8192x64_S64x128_S8192x128_1_0_0_1_n_n.lhsIdx_val_of_single rfl i q
theorem nodes_r0 (i : S8192x128.Idx) (q : dot_S8192x64_S64x128_S8192x128_1_0_0_1_n_n.contr.Idx) : (dot_S8192x64_S64x128_S8192x128_1_0_0_1_n_n.rhsIdx i q 0).val = (q ⟨0, by decide⟩).val :=
  dot_S8192x64_S64x128_S8192x128_1_0_0_1_n_n.rhsIdx_val_of_single rfl i q
theorem nodes_r1 (i : S8192x128.Idx) (q : dot_S8192x64_S64x128_S8192x128_1_0_0_1_n_n.contr.Idx) : (dot_S8192x64_S64x128_S8192x128_1_0_0_1_n_n.rhsIdx i q 1).val = (i 1).val := by
  unfold DotDims.rhsIdx
  rw [dif_neg (show ¬(1 : Fin S64x128.rank) ∈ dot_S8192x64_S64x128_S8192x128_1_0_0_1_n_n.rhsBatch by decide), dif_pos (show (1 : Fin S64x128.rank) ∈ dot_S8192x64_S64x128_S8192x128_1_0_0_1_n_n.rhsNonContracting by decide)]
  rfl

/-- Entry (p, u) of the product is Σ_k lhs (p, k) · rhs (k, u), k over 64 indices. -/
theorem nodes_apply {φ₁ φ₂ : FTy} (l : FVec Ideal S8192x64 φ₁) (r : FVec Ideal S64x128 φ₂) (p : Fin 8192) (u : Fin 128) :
    matmul dot_S8192x64_S64x128_S8192x128_1_0_0_1_n_n none l r (constant S8192x128 .f32 0x00000000#32) (ix2 p u) = ∑ k : Fin 64, l (ix2 p k) * r (ix2 k u) :=
  Cert.RowsProduct.matmul_zero_rows_apply dot_S8192x64_S64x128_S8192x128_1_0_0_1_n_n none rfl rfl nodes_l0 nodes_l1 nodes_r0 nodes_r1 l r p u

/-! ## an eye's per-segment layer: 4096 segments by 128 means against 128 by 128 weights -/

theorem eye_l0 (i : S4096x128.Idx) (q : dot_S4096x128_S128x128_S4096x128_1_0_0_1_n_n.contr.Idx) : (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem eye_l1 (i : S4096x128.Idx) (q : dot_S4096x128_S128x128_S4096x128_1_0_0_1_n_n.contr.Idx) : (dot_S4096x128_S128x128_S4096x128_1_0_0_1_n_n.lhsIdx i q 1).val = (q ⟨0, by decide⟩).val :=
  dot_S4096x128_S128x128_S4096x128_1_0_0_1_n_n.lhsIdx_val_of_single rfl i q
theorem eye_r0 (i : S4096x128.Idx) (q : dot_S4096x128_S128x128_S4096x128_1_0_0_1_n_n.contr.Idx) : (dot_S4096x128_S128x128_S4096x128_1_0_0_1_n_n.rhsIdx i q 0).val = (q ⟨0, by decide⟩).val :=
  dot_S4096x128_S128x128_S4096x128_1_0_0_1_n_n.rhsIdx_val_of_single rfl i q
theorem eye_r1 (i : S4096x128.Idx) (q : dot_S4096x128_S128x128_S4096x128_1_0_0_1_n_n.contr.Idx) : (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- Entry (p, u) of the product is Σ_k lhs (p, k) · rhs (k, u), k over 128 indices. -/
theorem eye_apply {φ₁ φ₂ : FTy} (l : FVec Ideal S4096x128 φ₁) (r : FVec Ideal S128x128 φ₂) (p : Fin 4096) (u : Fin 128) :
    matmul dot_S4096x128_S128x128_S4096x128_1_0_0_1_n_n none l r (constant S4096x128 .f32 0x00000000#32) (ix2 p u) = ∑ k : Fin 128, l (ix2 p k) * r (ix2 k u) :=
  Cert.RowsProduct.matmul_zero_rows_apply dot_S4096x128_S128x128_S4096x128_1_0_0_1_n_n none rfl rfl eye_l0 eye_l1 eye_r0 eye_r1 l r p u

/-! ## one eye's share of the hidden layer: 4096 segments by 128 features against a 128-row band of the hidden weights -/

theorem band_l0 (i : S4096x256.Idx) (q : dot_S4096x128_S128x256_S4096x256_1_0_0_1_n_n.contr.Idx) : (dot_S4096x128_S128x256_S4096x256_1_0_0_1_n_n.lhsIdx i q 0).val = (i 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
theorem band_l1 (i : S4096x256.Idx) (q : dot_S4096x128_S128x256_S4096x256_1_0_0_1_n_n.contr.Idx) : (dot_S4096x128_S128x256_S4096x256_1_0_0_1_n_n.lhsIdx i q 1).val = (q ⟨0, by decide⟩).val :=
  dot_S4096x128_S128x256_S4096x256_1_0_0_1_n_n.lhsIdx_val_of_single rfl i q
theorem band_r0 (i : S4096x256.Idx) (q : dot_S4096x128_S128x256_S4096x256_1_0_0_1_n_n.contr.Idx) : (dot_S4096x128_S128x256_S4096x256_1_0_0_1_n_n.rhsIdx i q 0).val = (q ⟨0, by decide⟩).val :=
  dot_S4096x128_S128x256_S4096x256_1_0_0_1_n_n.rhsIdx_val_of_single rfl i q
theorem band_r1 (i : S4096x256.Idx) (q : dot_S4096x128_S128x256_S4096x256_1_0_0_1_n_n.contr.Idx) : (dot_S4096x128_S128x256_S4096x256_1_0_0_1_n_n.rhsIdx i q 1).val = (i 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl

/-- Entry (p, u) of the product is Σ_k lhs (p, k) · rhs (k, u), k over 128 indices. -/
theorem band_apply {φ₁ φ₂ : FTy} (l : FVec Ideal S4096x128 φ₁) (r : FVec Ideal S128x256 φ₂) (p : Fin 4096) (u : Fin 256) :
    matmul dot_S4096x128_S128x256_S4096x256_1_0_0_1_n_n none l r (constant S4096x256 .f32 0x00000000#32) (ix2 p u) = ∑ k : Fin 128, l (ix2 p k) * r (ix2 k u) :=
  Cert.RowsProduct.matmul_zero_rows_apply dot_S4096x128_S128x256_S4096x256_1_0_0_1_n_n none rfl rfl band_l0 band_l1 band_r0 band_r1 l r p u

/-! ## the output layer: 4096 segments by 256 hidden units against 256 by 128 weights -/

theorem out_l0 (i : S4096x128.Idx) (q : dot_S4096x256_S256x128_S4096x128_1_0_0_1_n_n.contr.Idx) : (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
theorem out_l1 (i : S4096x128.Idx) (q : dot_S4096x256_S256x128_S4096x128_1_0_0_1_n_n.contr.Idx) : (dot_S4096x256_S256x128_S4096x128_1_0_0_1_n_n.lhsIdx i q 1).val = (q ⟨0, by decide⟩).val :=
  dot_S4096x256_S256x128_S4096x128_1_0_0_1_n_n.lhsIdx_val_of_single rfl i q
theorem out_r0 (i : S4096x128.Idx) (q : dot_S4096x256_S256x128_S4096x128_1_0_0_1_n_n.contr.Idx) : (dot_S4096x256_S256x128_S4096x128_1_0_0_1_n_n.rhsIdx i q 0).val = (q ⟨0, by decide⟩).val :=
  dot_S4096x256_S256x128_S4096x128_1_0_0_1_n_n.rhsIdx_val_of_single rfl i q
theorem out_r1 (i : S4096x128.Idx) (q : dot_S4096x256_S256x128_S4096x128_1_0_0_1_n_n.contr.Idx) : (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

/-- Entry (p, u) of the product is Σ_k lhs (p, k) · rhs (k, u), k over 256 indices. -/
theorem out_apply {φ₁ φ₂ : FTy} (l : FVec Ideal S4096x256 φ₁) (r : FVec Ideal S256x128 φ₂) (p : Fin 4096) (u : Fin 128) :
    matmul dot_S4096x256_S256x128_S4096x128_1_0_0_1_n_n none l r (constant S4096x128 .f32 0x00000000#32) (ix2 p u) = ∑ k : Fin 256, l (ix2 p k) * r (ix2 k u) :=
  Cert.RowsProduct.matmul_zero_rows_apply dot_S4096x256_S256x128_S4096x128_1_0_0_1_n_n none rfl rfl out_l0 out_l1 out_r0 out_r1 l r p u

end Cert.KernelIdeal.Products

end
-- ==== Proof.LibAttnRead.lean ====
/-
  Vector operations of rank-3 literal shapes read at an index built from coordinates, at the extended reals:
  a product contracting one axis with the operands' index maps named by the caller; the maximum and the sum
  along the last axis of an a × b × c array; a rank-2 array given a trailing unit axis and a trailing unit axis
  broadcast along the lanes; a leading unit axis broadcast; the two leading axes of a rank-3 array merged into
  one and split again.  Nothing here knows a program.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.AttnRead

open Idealize.ShloMosaic Idealize.ShloMosaic.ValueIdx

variable {α : Type}

/-- A product into the zero accumulator contracting ONE axis of extent `K`, read at the output index `j`: when the
    operands' indices at `j` and contraction coordinate `k` are `L k` and `R k`, the entry is Σ_k lhs (L k) · rhs (R k). -/
theorem matmul_zero_single_apply {sl sr so : Shape} {φ₁ φ₂ : FTy} {K : ℕ} (D : DotDims sl sr so)
    (prec : Option ContractPrecision) (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The maximum along the last axis of an `a × b × c` array, from the word `0xFF800000`, is at `(p, q)` the fold of
    `max` over the entries `(p, q, ·)`. -/
theorem laneMax3_apply {a b c : ℕ} (src : FVec Ideal ⟨3, ![a, b, c]⟩ .f32)
    (h : (⟨3, ![a, b, c]⟩ : Shape).Reduces [2] ⟨2, ![a, b]⟩) (hφ : FKind.Formats .f32)
    (hacc : (0xFF800000#32 : BitVec FTy.f32.bits) = FKind.maximumf.neutral .f32 hφ) (p : Fin a) (q : Fin b) :
    multiReduction .maximumf [2] ⟨2, ![a, b]⟩ src 0xFF800000#32 h hφ hacc (ix2 p q)
      = (Finset.univ : Finset (Fin c)).fold max (Ideal.ofBits .f32 0xFF800000#32) (fun k => src (ix3 p q k)) := by
  refine (Ideal.multiReduction_maximumf_single src 0xFF800000#32 h hφ hacc (ix2 p q)).trans ?_
  show (Finset.univ : Finset (Fin c)).fold max (Ideal.ofBits .f32 0xFF800000#32) (fun k => src (h.lift (ix2 p q) k)) = _
  refine congrArg (fun f => Finset.fold max (Ideal.ofBits .f32 0xFF800000#32) f (Finset.univ : Finset (Fin c)))
    (funext fun k => congrArg src (funext fun d => Fin.ext ?_))
  match d with
  | ⟨0, _⟩ => rfl
  | ⟨1, _⟩ => rfl
  | ⟨2, _⟩ => rfl

/-- The sum along the last axis of an `a × b × c` array, from the zero word, is at `(p, q)` the finite sum of the
    entries `(p, q, ·)`. -/
theorem laneSum3_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec FTy.f32.bits) = FKind.add.neutral .f32 hφ) (p : Fin a) (q : Fin b) :
    multiReduction .add [2] ⟨2, ![a, b]⟩ src 0x00000000#32 h hφ hacc (ix2 p q) = ∑ k : Fin c, src (ix3 p q k) := by
  refine (Ideal.multiReduction_add_single src 0x00000000#32 h hφ hacc (ix2 p q)).trans ?_
  show ∑ k : Fin c, src (h.lift (ix2 p q) k) = _
  refine Finset.sum_congr rfl fun k _ => congrArg src (funext fun d => Fin.ext ?_)
  match d with
  | ⟨0, _⟩ => rfl
  | ⟨1, _⟩ => rfl
  | ⟨2, _⟩ => rfl

/-- An `a × b` array given a trailing unit axis reads, at `(p, q, 0)`, the array at `(p, q)`. -/
theorem shapeCast_ab_ab1_apply {a b : ℕ} (v : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ v h (ix3 p q z) = v (ix2 p q) :=
  shapeCast_apply v h _ _ (by
    have hz : z.val = 0 := by omega
    rw [Shape.rowMajor_val_three, Shape.rowMajor_val_two]
    show p.val * b + q.val = (p.val * b + q.val) * 1 + z.val
    omega)

/-- An `a × b × 1` array broadcast along the lanes to `a × b × c` reads, at `(p, q, k)`, the array at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `1 × a × b` array broadcast along a new leading extent `m` reads, at `(u, i, j)`, the array at `(0, i, j)`. -/
theorem broadcastTo_1ab_mab_apply {m a b : ℕ} (v : (⟨3, ![1, a, b]⟩ : Shape).Idx → α)
    (h : (⟨3, ![1, a, b]⟩ : Shape).Broadcasts ⟨3, ![m, a, b]⟩) (u : Fin m) (i : Fin a) (j : Fin b) :
    broadcastTo ⟨3, ![m, a, b]⟩ v h (ix3 u i j) = v (ix3 (0 : Fin 1) i j) := by
  refine broadcastTo_apply v h (ix3 u i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- An `n × c` array, `n = a · b`, viewed as `a × b × c` reads, at `(p, q, r)`, the array at row `p · b + q`. -/
theorem shapeCast_split_apply {a b c n : ℕ} (x : (⟨2, ![n, c]⟩ : Shape).Idx → α)
    (h : (⟨2, ![n, c]⟩ : Shape).ShapeCasts ⟨3, ![a, b, c]⟩) (p : Fin a) (q : Fin b) (r : Fin c) (pq : Fin n)
    (hpq : pq.val = p.val * b + q.val) : shapeCast ⟨3, ![a, b, c]⟩ x h (ix3 p q r) = x (ix2 pq r) :=
  shapeCast_apply x h _ _ (by
    rw [Shape.rowMajor_val_three, Shape.rowMajor_val_two]
    show pq.val * c + r.val = (p.val * b + q.val) * c + r.val
    rw [hpq])

/-- An `a × b × c` array viewed as `n × c`, `n = a · b`, reads, at row `p · b + q`, the array at `(p, q, r)`. -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (r : Fin c) (pq : Fin n)
    (hpq : pq.val = p.val * b + q.val) : shapeCast ⟨2, ![n, c]⟩ x h (ix2 pq r) = x (ix3 p q r) :=
  shapeCast_apply x h _ _ (by
    rw [Shape.rowMajor_val_three, Shape.rowMajor_val_two]
    show (p.val * b + q.val) * c + r.val = pq.val * c + r.val
    rw [hpq])

end Cert.AttnRead

end
-- ==== Proof.LibRowsByRows.lean ====
/-
  Two reads at an entry (p, u), on the extended reals.

  The product of an a × K array by a b × K array with the LAST axis of both contracted, formed into the zero
  accumulator, is the sum over k of lhs (p, k) · rhs (u, k): each output entry is the inner product of a row of
  the left operand with a ROW of the right one (a weight array kept as outputs × inputs).  The operands may be
  typed at any float formats.  The dimension record enters through its contracted rank and extent and four facts
  about where it sends an output index and a contraction index.

  A row of n numbers kept as a 1 × n array and repeated down a rows reads its entry u.

  Nothing here knows a program.
-/
import proofs.«131063_j79010218377372_2_alg».proof.Proof.LibAttnRead

noncomputable section

open scoped BigOperators

namespace Cert.RowsByRows

open Idealize.ShloMosaic Idealize.ShloMosaic.ValueIdx

variable {a b K : ℕ} {φ₁ φ₂ : FTy}

/-- Rows against rows: the entry (p, u) of the product is Σ_k lhs (p, k) · rhs (u, k). -/
theorem matmul_rows_rows_apply (D : DotDims ⟨2, ![a, K]⟩ ⟨2, ![b, K]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (lhs : FVec Ideal ⟨2, ![a, K]⟩ φ₁) (rhs : FVec Ideal ⟨2, ![b, K]⟩ φ₂) (p : Fin a) (u : Fin b) :
    FloatOps.matmul D prec lhs rhs (constant ⟨2, ![a, b]⟩ .f32 0x00000000#32) (ix2 p u)
      = ∑ k : Fin K, lhs (ix2 p k) * rhs (ix2 u k) := by
  refine Cert.AttnRead.matmul_zero_single_apply D prec hr hs lhs rhs (ix2 p u) (fun k => ix2 p k) (fun k => ix2 u k)
    (fun k => ?_) (fun k => ?_)
  · have hk := contrEquiv1_symm_val D K hr hs k
    funext ax
    apply Fin.ext
    match ax with
    | ⟨0, _⟩ => exact hl0 _ _
    | ⟨1, _⟩ => exact (hl1 _ _).trans hk
  · have hk := contrEquiv1_symm_val D K hr hs k
    funext ax
    apply Fin.ext
    match ax with
    | ⟨0, _⟩ => exact hr0 _ _
    | ⟨1, _⟩ => exact (hr1 _ _).trans hk

/-- A 1 × n row, cast to its own shape and repeated down a rows, reads at (p, u) the row's entry u. -/
theorem biasRow_apply {α : Type} {n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![a, n]⟩)
    (p : Fin a) (u : Fin n) :
    broadcastTo ⟨2, ![a, n]⟩ (shapeCast ⟨2, ![1, n]⟩ v hc) hb (ix2 p u) = v (ix2 (0 : Fin 1) u) := by
  rw [shapeCast_self]
  refine broadcastTo_apply v hb (ix2 p u) (ix2 (0 : Fin 1) u) fun ax => ?_
  match ax with
  | ⟨0, _⟩ => rfl
  | ⟨1, _⟩ =>
    show u.val = if n = 1 then 0 else u.val
    split
    · have := u.isLt; omega
    · rfl

end Cert.RowsByRows

end
-- ==== Proof.Stage0.lean ====
/-
  The first stage: the per-node layer of both eyes, one block of 8192 nodes per grid point, 128 points.

  At point t the body loads rows 8192·t … 8192·t + 8191 of each eye's node array, the whole 64 × 128 weight array and
  the 1 × 128 bias row, and stores for each eye the product plus the bias row, positive part.  Read at an entry, that is
  the dense layer of the specification on the loaded blocks; since entry (p, u) of a block depends only on row p of
  the node block, block t of the stage's output is block t of the dense layer of the WHOLE node array.  The 128 blocks
  tile the output array, so after the stage each output array is the dense layer of the arrays the stage was entered
  with.  Everything is stated for arbitrary entry contents `V`.
-/
import proofs.«131063_j79010218377372_2_alg».proof.Proof.Gen.KernelIdeal.Frame
import proofs.«131063_j79010218377372_2_alg».proof.Proof.Layers
import proofs.«131063_j79010218377372_2_alg».proof.Proof.Products
import proofs.«131063_j79010218377372_2_alg».proof.Proof.LibRowsByRows
import Idealize.ShloMosaic.Lib.Pipeline.Value

set_option maxRecDepth 16384

noncomputable section

open scoped BigOperators

namespace Cert.KernelIdeal.Stage0

open Cert.KernelIdeal Cert.KernelIdeal.Gen Cert.EyeMlp
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The block indices that move with the grid point: the node blocks and the output blocks are block t along the rows. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The block indices that do not move: weights and bias rows are block (0, 0) at every point. -/
theorem const_facts : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

variable (V : (c : Dev nD) → (b : Ref sig .tc) → Buf (Elt Ideal) ((c : Thread nD τ).loc b))

/-! ## The first eye -/

/-- The body's value for the first eye at entry (p, u) of its block: the dense layer with positive part of the loaded
    node block, weights and bias row (the roundings to a narrower format are the identity on the extended reals). -/
theorem pay0_apply (x : Vec Ideal S8192x64 .f32) (W : Vec Ideal S64x128 .f32) (b : Vec Ideal S1x128 .f32) (p : Fin 8192) (u : Fin 128) :
    k0_pay1 (F := Ideal) x W b (ix2 p u) = denseReluAt x W (fun u => b (ix2 (0 : Fin 1) u)) p u := by
  unfold k0_pay1 denseReluAt
  show (max (matmul (F := Ideal) dot_S8192x64_S64x128_S8192x128_1_0_0_1_n_n none (truncf .bf16 x bitsLt_bf16_f32) (truncf .bf16 W bitsLt_bf16_f32) (constant S8192x128 .f32 0x00000000#32) (ix2 p u)
      + broadcastTo S8192x128 (shapeCast S1x128 b shapeCasts_S1x128_S1x128) broadcasts_S1x128_S8192x128 (ix2 p u)) (Ideal.ofBits .f32 0x00000000#32) : EReal) = _
  rw [Products.nodes_apply, Cert.RowsByRows.biasRow_apply]
  rfl

/-- The node block at point t is rows 8192·t … 8192·t + 8191 of the eye's node array. -/
theorem blk_nodes0 (c : Dev nD) (t : Fin cfg0.N) (p : Fin 8192) (k : Fin 64) (q : Fin 1048576) (hq : q.val = 8192 * t.val + p.val) :
    (iblk0 V c 0 t : Vec Ideal S8192x64 .f32) (ix2 p k) = (V c main_arg0 : S1048576x64.Idx → EReal) (ix2 q k) := by
  obtain ⟨e00, e01, e10, e11, -⟩ := idx_facts t
  unfold iblk0
  show V c main_arg0 _ = V c main_arg0 _
  refine congrArg _ (funext fun a => Fin.ext ?_)
  match a with
  | ⟨0, _⟩ => show win0_0.index t (0 : Fin 2) * 8192 + 1 * p.val = q.val; rw [e00, hq]; omega
  | ⟨1, _⟩ => show win0_0.index t (1 : Fin 2) * 64 + 1 * k.val = k.val; rw [e01]; omega

/-- The weight block at every point is the whole weight array. -/
theorem blk_weights0 (c : Dev nD) (t : Fin cfg0.N) (k : Fin 64) (u : Fin 128) :
    (iblk0 V c 2 t : Vec Ideal S64x128 .f32) (ix2 k u) = (V c main_arg4 : S64x128.Idx → EReal) (ix2 k u) := by
  obtain ⟨w0, w1, w2, w3, w4, w5, w6, w7⟩ := const_facts t
  unfold iblk0
  show V c main_arg4 _ = V c main_arg4 _
  refine congrArg _ (funext fun a => Fin.ext ?_)
  match a with
  | ⟨0, _⟩ => show win0_2.index t (0 : Fin 2) * 64 + 1 * k.val = k.val; rw [w0]; omega
  | ⟨1, _⟩ => show win0_2.index t (1 : Fin 2) * 128 + 1 * u.val = u.val; rw [w1]; omega

/-- The bias block at every point is the whole 1 × 128 bias row. -/
theorem blk_bias0 (c : Dev nD) (t : Fin cfg0.N) (u : Fin 128) :
    (iblk0 V c 3 t : Vec Ideal S1x128 .f32) (ix2 (0 : Fin 1) u) = (V c main_v0 : S1x128.Idx → EReal) (ix2 (0 : Fin 1) u) := by
  obtain ⟨w0, w1, w2, w3, w4, w5, w6, w7⟩ := const_facts t
  unfold iblk0
  show V c main_v0 _ = V c main_v0 _
  refine congrArg _ (funext fun a => Fin.ext ?_)
  match a with
  | ⟨0, _⟩ => show win0_3.index t (0 : Fin 2) * 1 + 1 * 0 = 0; rw [w2]
  | ⟨1, _⟩ => show win0_3.index t (1 : Fin 2) * 128 + 1 * u.val = u.val; rw [w3]; omega

/-- The first eye's node layer over the whole node array, from the contents the stage is entered with. -/
abbrev layer0 (c : Dev nD) : S1048576x128.Idx → EReal :=
  denseRelu (V c main_arg0 : S1048576x64.Idx → EReal) (V c main_arg4 : S64x128.Idx → EReal) (fun u => (V c main_v0 : S1x128.Idx → EReal) (ix2 (0 : Fin 1) u))

/-- What point t writes back for the first eye is block t of the node layer: entry (p, u) of the block is the layer at node
    8192·t + p, which depends on that node's row of the node array, the whole weight array and the bias row. -/
theorem flushed0_eq (c : Dev nD) (t : Fin cfg0.N) :
    (dat0 V c).flushed 6 t = ((cfg0.win 6).blk t).view.read (Elt Ideal) (layer0 V c) := by
  have ht : t.val < 128 := lt_of_lt_of_eq t.isLt N_0
  obtain ⟨-, -, -, -, o00, o01, o10, o11⟩ := idx_facts t
  show (cfg0.win 6).cut (grid0.coords t) ((dat0 V c).after 6 t) = _
  rw [after0_6]
  unfold out0_6
  rw [View.canon_unit_zero hz]
  simp only [View.ld_unit_zero (S := S8192x64) hz, View.ld_unit_zero (S := S64x128) hz, View.ld_unit_zero (S := S1x128) hz]
  funext j
  obtain ⟨p, u, rfl⟩ : ∃ (p : Fin 8192) (u : Fin 128), j = ix2 p u := ⟨j 0, j 1, eq_ix2 j⟩
  have hq : 8192 * t.val + p.val < 1048576 := by have := p.isLt; omega
  have he : ((cfg0.win 6).blk t).view.emb (ix2 p u) = ix2 (⟨8192 * t.val + p.val, hq⟩ : Fin 1048576) u := funext fun a => Fin.ext (by
    match a with
    | ⟨0, _⟩ => show win0_6.index t (0 : Fin 2) * 8192 + 1 * p.val = 8192 * t.val + p.val; rw [o00]; omega
    | ⟨1, _⟩ => show win0_6.index t (1 : Fin 2) * 128 + 1 * u.val = u.val; rw [o01]; omega)
  show k0_pay1 (iblk0 V c 0 t) (iblk0 V c 2 t) (iblk0 V c 3 t) (ix2 p u) = layer0 V c (((cfg0.win 6).blk t).view.emb (ix2 p u))
  rw [he]
  refine (pay0_apply (iblk0 V c 0 t) (iblk0 V c 2 t) (iblk0 V c 3 t) p u).trans ?_
  show _ = denseReluAt _ _ _ (⟨8192 * t.val + p.val, hq⟩ : Fin 1048576) u
  unfold denseReluAt
  simp only [fun k => blk_nodes0 V c t p k ⟨8192 * t.val + p.val, hq⟩ rfl, blk_weights0 V c t, blk_bias0 V c t]

/-- Every node row lies in the block of the point 'row / 8192'. -/
theorem cover0 (c : Dev nD) (i : S1048576x128.Idx) :
    ∃ t : Fin cfg0.N, (cfg0.win 6).flush t = true ∧ i ∈ ((cfg0.win 6).blk t).view.set := by
  have h0 : (i 0).val < 1048576 := (i 0).isLt
  have h1 : (i 1).val < 128 := (i 1).isLt
  have hN : (i 0).val / 8192 < cfg0.N := lt_of_lt_of_eq (by omega : (i 0).val / 8192 < 128) N_0.symm
  obtain ⟨-, -, -, -, o00, o01, o10, o11⟩ := idx_facts ⟨(i 0).val / 8192, hN⟩
  refine ⟨⟨(i 0).val / 8192, hN⟩, flush0_6 _, ?_⟩
  show i ∈ ((View.whole main_v2_0).slice (win0_6.rect ⟨(i 0).val / 8192, hN⟩)).set
  rw [View.set_slice_whole, Rect.mem_set_unit]
  intro a
  match a with
  | ⟨0, _⟩ =>
    show win0_6.index ⟨(i 0).val / 8192, hN⟩ (0 : Fin 2) * 8192 ≤ (i 0).val ∧ (i 0).val < win0_6.index ⟨(i 0).val / 8192, hN⟩ (0 : Fin 2) * 8192 + 8192
    rw [o00]; show (i 0).val / 8192 * 8192 ≤ (i 0).val ∧ (i 0).val < (i 0).val / 8192 * 8192 + 8192; omega
  | ⟨1, _⟩ =>
    show win0_6.index ⟨(i 0).val / 8192, hN⟩ (1 : Fin 2) * 128 ≤ (i 1).val ∧ (i 1).val < win0_6.index ⟨(i 0).val / 8192, hN⟩ (1 : Fin 2) * 128 + 128
    rw [o01]; omega

/-- So the first eye's output array of the stage ends holding the node layer. -/
theorem nodes0 (c : Dev nD) : (dat0 V c).arrAt 6 cfg0.N = layer0 V c :=
  (dat0 V c).arrAt_eq_of_cover 6 (layer0 V c) (fun t _ => flushed0_eq V c t) (cover0 c)

/-! ## The second eye -/

/-- The body's value for the second eye at entry (p, u) of its block: the dense layer with positive part of the loaded
    node block, weights and bias row (the roundings to a narrower format are the identity on the extended reals). -/
theorem pay1_apply (x : Vec Ideal S8192x64 .f32) (W : Vec Ideal S64x128 .f32) (b : Vec Ideal S1x128 .f32) (p : Fin 8192) (u : Fin 128) :
    k0_pay2 (F := Ideal) x W b (ix2 p u) = denseReluAt x W (fun u => b (ix2 (0 : Fin 1) u)) p u := by
  unfold k0_pay2 denseReluAt
  show (max (matmul (F := Ideal) dot_S8192x64_S64x128_S8192x128_1_0_0_1_n_n none (truncf .bf16 x bitsLt_bf16_f32) (truncf .bf16 W bitsLt_bf16_f32) (constant S8192x128 .f32 0x00000000#32) (ix2 p u)
      + broadcastTo S8192x128 (shapeCast S1x128 b shapeCasts_S1x128_S1x128) broadcasts_S1x128_S8192x128 (ix2 p u)) (Ideal.ofBits .f32 0x00000000#32) : EReal) = _
  rw [Products.nodes_apply, Cert.RowsByRows.biasRow_apply]
  rfl

/-- The node block at point t is rows 8192·t … 8192·t + 8191 of the eye's node array. -/
theorem blk_nodes1 (c : Dev nD) (t : Fin cfg0.N) (p : Fin 8192) (k : Fin 64) (q : Fin 1048576) (hq : q.val = 8192 * t.val + p.val) :
    (iblk0 V c 1 t : Vec Ideal S8192x64 .f32) (ix2 p k) = (V c main_arg1 : S1048576x64.Idx → EReal) (ix2 q k) := by
  obtain ⟨e00, e01, e10, e11, -⟩ := idx_facts t
  unfold iblk0
  show V c main_arg1 _ = V c main_arg1 _
  refine congrArg _ (funext fun a => Fin.ext ?_)
  match a with
  | ⟨0, _⟩ => show win0_1.index t (0 : Fin 2) * 8192 + 1 * p.val = q.val; rw [e10, hq]; omega
  | ⟨1, _⟩ => show win0_1.index t (1 : Fin 2) * 64 + 1 * k.val = k.val; rw [e11]; omega

/-- The weight block at every point is the whole weight array. -/
theorem blk_weights1 (c : Dev nD) (t : Fin cfg0.N) (k : Fin 64) (u : Fin 128) :
    (iblk0 V c 4 t : Vec Ideal S64x128 .f32) (ix2 k u) = (V c main_arg8 : S64x128.Idx → EReal) (ix2 k u) := by
  obtain ⟨w0, w1, w2, w3, w4, w5, w6, w7⟩ := const_facts t
  unfold iblk0
  show V c main_arg8 _ = V c main_arg8 _
  refine congrArg _ (funext fun a => Fin.ext ?_)
  match a with
  | ⟨0, _⟩ => show win0_4.index t (0 : Fin 2) * 64 + 1 * k.val = k.val; rw [w4]; omega
  | ⟨1, _⟩ => show win0_4.index t (1 : Fin 2) * 128 + 1 * u.val = u.val; rw [w5]; omega

/-- The bias block at every point is the whole 1 × 128 bias row. -/
theorem blk_bias1 (c : Dev nD) (t : Fin cfg0.N) (u : Fin 128) :
    (iblk0 V c 5 t : Vec Ideal S1x128 .f32) (ix2 (0 : Fin 1) u) = (V c main_v1 : S1x128.Idx → EReal) (ix2 (0 : Fin 1) u) := by
  obtain ⟨w0, w1, w2, w3, w4, w5, w6, w7⟩ := const_facts t
  unfold iblk0
  show V c main_v1 _ = V c main_v1 _
  refine congrArg _ (funext fun a => Fin.ext ?_)
  match a with
  | ⟨0, _⟩ => show win0_5.index t (0 : Fin 2) * 1 + 1 * 0 = 0; rw [w6]
  | ⟨1, _⟩ => show win0_5.index t (1 : Fin 2) * 128 + 1 * u.val = u.val; rw [w7]; omega

/-- The second eye's node layer over the whole node array, from the contents the stage is entered with. -/
abbrev layer1 (c : Dev nD) : S1048576x128.Idx → EReal :=
  denseRelu (V c main_arg1 : S1048576x64.Idx → EReal) (V c main_arg8 : S64x128.Idx → EReal) (fun u => (V c main_v1 : S1x128.Idx → EReal) (ix2 (0 : Fin 1) u))

/-- What point t writes back for the second eye is block t of the node layer: entry (p, u) of the block is the layer at node
    8192·t + p, which depends on that node's row of the node array, the whole weight array and the bias row. -/
theorem flushed1_eq (c : Dev nD) (t : Fin cfg0.N) :
    (dat0 V c).flushed 7 t = ((cfg0.win 7).blk t).view.read (Elt Ideal) (layer1 V c) := by
  have ht : t.val < 128 := lt_of_lt_of_eq t.isLt N_0
  obtain ⟨-, -, -, -, o00, o01, o10, o11⟩ := idx_facts t
  show (cfg0.win 7).cut (grid0.coords t) ((dat0 V c).after 7 t) = _
  rw [after0_7]
  unfold out0_7
  rw [View.canon_unit_zero hz]
  simp only [View.ld_unit_zero (S := S8192x64) hz, View.ld_unit_zero (S := S64x128) hz, View.ld_unit_zero (S := S1x128) hz]
  funext j
  obtain ⟨p, u, rfl⟩ : ∃ (p : Fin 8192) (u : Fin 128), j = ix2 p u := ⟨j 0, j 1, eq_ix2 j⟩
  have hq : 8192 * t.val + p.val < 1048576 := by have := p.isLt; omega
  have he : ((cfg0.win 7).blk t).view.emb (ix2 p u) = ix2 (⟨8192 * t.val + p.val, hq⟩ : Fin 1048576) u := funext fun a => Fin.ext (by
    match a with
    | ⟨0, _⟩ => show win0_7.index t (0 : Fin 2) * 8192 + 1 * p.val = 8192 * t.val + p.val; rw [o10]; omega
    | ⟨1, _⟩ => show win0_7.index t (1 : Fin 2) * 128 + 1 * u.val = u.val; rw [o11]; omega)
  show k0_pay2 (iblk0 V c 1 t) (iblk0 V c 4 t) (iblk0 V c 5 t) (ix2 p u) = layer1 V c (((cfg0.win 7).blk t).view.emb (ix2 p u))
  rw [he]
  refine (pay1_apply (iblk0 V c 1 t) (iblk0 V c 4 t) (iblk0 V c 5 t) p u).trans ?_
  show _ = denseReluAt _ _ _ (⟨8192 * t.val + p.val, hq⟩ : Fin 1048576) u
  unfold denseReluAt
  simp only [fun k => blk_nodes1 V c t p k ⟨8192 * t.val + p.val, hq⟩ rfl, blk_weights1 V c t, blk_bias1 V c t]

/-- Every node row lies in the block of the point 'row / 8192'. -/
theorem cover1 (c : Dev nD) (i : S1048576x128.Idx) :
    ∃ t : Fin cfg0.N, (cfg0.win 7).flush t = true ∧ i ∈ ((cfg0.win 7).blk t).view.set := by
  have h0 : (i 0).val < 1048576 := (i 0).isLt
  have h1 : (i 1).val < 128 := (i 1).isLt
  have hN : (i 0).val / 8192 < cfg0.N := lt_of_lt_of_eq (by omega : (i 0).val / 8192 < 128) N_0.symm
  obtain ⟨-, -, -, -, o00, o01, o10, o11⟩ := idx_facts ⟨(i 0).val / 8192, hN⟩
  refine ⟨⟨(i 0).val / 8192, hN⟩, flush0_7 _, ?_⟩
  show i ∈ ((View.whole main_v2_1).slice (win0_7.rect ⟨(i 0).val / 8192, hN⟩)).set
  rw [View.set_slice_whole, Rect.mem_set_unit]
  intro a
  match a with
  | ⟨0, _⟩ =>
    show win0_7.index ⟨(i 0).val / 8192, hN⟩ (0 : Fin 2) * 8192 ≤ (i 0).val ∧ (i 0).val < win0_7.index ⟨(i 0).val / 8192, hN⟩ (0 : Fin 2) * 8192 + 8192
    rw [o10]; show (i 0).val / 8192 * 8192 ≤ (i 0).val ∧ (i 0).val < (i 0).val / 8192 * 8192 + 8192; omega
  | ⟨1, _⟩ =>
    show win0_7.index ⟨(i 0).val / 8192, hN⟩ (1 : Fin 2) * 128 ≤ (i 1).val ∧ (i 1).val < win0_7.index ⟨(i 0).val / 8192, hN⟩ (1 : Fin 2) * 128 + 128
    rw [o11]; omega

/-- So the second eye's output array of the stage ends holding the node layer. -/
theorem nodes1 (c : Dev nD) : (dat0 V c).arrAt 7 cfg0.N = layer1 V c :=
  (dat0 V c).arrAt_eq_of_cover 7 (layer1 V c) (fun t _ => flushed1_eq V c t) (cover1 c)

end Cert.KernelIdeal.Stage0

end
-- ==== Proof.Stage1.lean ====
/-
  The second stage: the perceptron on the two eyes' segment means, one block of 4096 segments per grid point, 16 points.

  At point t the body loads rows 4096·t … 4096·t + 4095 of each array of means and, whole, every weight array and
  bias row.  It forms each eye's dense layer with positive part, the two eyes' products with the low and the high band
  of the hidden weights, their sum plus the hidden bias, positive part, and the output layer.  Read at an entry that is
  the specification's perceptron on the loaded blocks; an output entry depends on the means only through its own row,
  so block t of the stage's output is block t of the perceptron of the WHOLE arrays of means.  The 16 blocks tile the
  result array.  Everything is stated for arbitrary entry contents `V`.
-/
import proofs.«131063_j79010218377372_2_alg».proof.Proof.Gen.KernelIdeal.Frame
import proofs.«131063_j79010218377372_2_alg».proof.Proof.Layers
import proofs.«131063_j79010218377372_2_alg».proof.Proof.Products
import proofs.«131063_j79010218377372_2_alg».proof.Proof.LibRowsByRows
import Idealize.ShloMosaic.Lib.Pipeline.Value

set_option maxRecDepth 16384

noncomputable section

open scoped BigOperators

namespace Cert.KernelIdeal.Stage1

open Cert.KernelIdeal Cert.KernelIdeal.Gen Cert.EyeMlp
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## The body at an entry -/

/-- An eye's layer on a block of means, at entry (p, k): the dense layer with positive part (casting an array to its own
    shape and rounding to a narrower format are the identity on the extended reals). -/
theorem eye_apply (m : Vec Ideal S4096x128 .f32) (W : Vec Ideal S128x128 .f32) (b : Vec Ideal S1x128 .f32) (p : Fin 4096) (k : Fin 128) :
    (maximumf (addf (matmul (F := Ideal) dot_S4096x128_S128x128_S4096x128_1_0_0_1_n_n none (truncf .bf16 (shapeCast S4096x128 m shapeCasts_S4096x128_S4096x128) bitsLt_bf16_f32) (truncf .bf16 W bitsLt_bf16_f32) (constant S4096x128 .f32 0x00000000#32)) (broadcastTo S4096x128 (shapeCast S1x128 b shapeCasts_S1x128_S1x128) broadcasts_S1x128_S4096x128)) (broadcast S4096x128 (Scalar.ofBits .f32 0x00000000#32)) : FVec Ideal S4096x128 .f32) (ix2 p k)
      = denseReluAt (m : S4096x128.Idx → EReal) (W : S128x128.Idx → EReal) (fun u => b (ix2 (0 : Fin 1) u)) p k := by
  unfold denseReluAt
  show (max (matmul (F := Ideal) dot_S4096x128_S128x128_S4096x128_1_0_0_1_n_n none (truncf .bf16 (shapeCast S4096x128 m shapeCasts_S4096x128_S4096x128) bitsLt_bf16_f32) (truncf .bf16 W bitsLt_bf16_f32) (constant S4096x128 .f32 0x00000000#32) (ix2 p k)
      + broadcastTo S4096x128 (shapeCast S1x128 b shapeCasts_S1x128_S1x128) broadcasts_S1x128_S4096x128 (ix2 p k)) (Ideal.ofBits .f32 0x00000000#32) : EReal) = _
  rw [Products.eye_apply, Cert.RowsByRows.biasRow_apply, shapeCast_self]
  rfl

/-- The sum of the two eyes' products with their bands of the hidden weights, at entry (p, j). -/
theorem bands_apply (m0 m1 : Vec Ideal S4096x128 .f32) (Wc0 Wc1 : Vec Ideal S128x128 .f32) (b0 b1 : Vec Ideal S1x128 .f32)
    (Wlo Whi : Vec Ideal S128x256 .f32) (p : Fin 4096) (j : Fin 256) :
    k1_pay2 (F := Ideal) m0 m1 Wc0 Wc1 b0 b1 Wlo Whi (ix2 p j)
      = (∑ k : Fin 128, denseReluAt (m0 : S4096x128.Idx → EReal) (Wc0 : S128x128.Idx → EReal) (fun u => b0 (ix2 (0 : Fin 1) u)) p k * Wlo (ix2 k j))
        + ∑ k : Fin 128, denseReluAt (m1 : S4096x128.Idx → EReal) (Wc1 : S128x128.Idx → EReal) (fun u => b1 (ix2 (0 : Fin 1) u)) p k * Whi (ix2 k j) := by
  unfold k1_pay2
  show (matmul (F := Ideal) dot_S4096x128_S128x256_S4096x256_1_0_0_1_n_n none (truncf .bf16 (maximumf (addf (matmul (F := Ideal) dot_S4096x128_S128x128_S4096x128_1_0_0_1_n_n none (truncf .bf16 (shapeCast S4096x128 m0 shapeCasts_S4096x128_S4096x128) bitsLt_bf16_f32) (truncf .bf16 Wc0 bitsLt_bf16_f32) (constant S4096x128 .f32 0x00000000#32)) (broadcastTo S4096x128 (shapeCast S1x128 b0 shapeCasts_S1x128_S1x128) broadcasts_S1x128_S4096x128)) (broadcast S4096x128 (Scalar.ofBits .f32 0x00000000#32)) : FVec Ideal S4096x128 .f32) bitsLt_bf16_f32) (truncf .bf16 (shapeCast S128x256 Wlo shapeCasts_S128x256_S128x256) bitsLt_bf16_f32) (constant S4096x256 .f32 0x00000000#32) (ix2 p j)
      + matmul (F := Ideal) dot_S4096x128_S128x256_S4096x256_1_0_0_1_n_n none (truncf .bf16 (maximumf (addf (matmul (F := Ideal) dot_S4096x128_S128x128_S4096x128_1_0_0_1_n_n none (truncf .bf16 (shapeCast S4096x128 m1 shapeCasts_S4096x128_S4096x128) bitsLt_bf16_f32) (truncf .bf16 Wc1 bitsLt_bf16_f32) (constant S4096x128 .f32 0x00000000#32)) (broadcastTo S4096x128 (shapeCast S1x128 b1 shapeCasts_S1x128_S1x128) broadcasts_S1x128_S4096x128)) (broadcast S4096x128 (Scalar.ofBits .f32 0x00000000#32)) : FVec Ideal S4096x128 .f32) bitsLt_bf16_f32) (truncf .bf16 (shapeCast S128x256 Whi shapeCasts_S128x256_S128x256) bitsLt_bf16_f32) (constant S4096x256 .f32 0x00000000#32) (ix2 p j) : EReal) = _
  rw [Products.band_apply, Products.band_apply]
  refine congrArg₂ (· + ·)
    (Finset.sum_congr rfl fun k _ => congrArg₂ (· * ·) ?_ (congrFun (shapeCast_self Wlo shapeCasts_S128x256_S128x256) (ix2 k j)))
    (Finset.sum_congr rfl fun k _ => congrArg₂ (· * ·) ?_ (congrFun (shapeCast_self Whi shapeCasts_S128x256_S128x256) (ix2 k j)))
  · exact eye_apply m0 Wc0 b0 p k
  · exact eye_apply m1 Wc1 b1 p k

/-- The stored value at entry (p, u): the specification's perceptron on the loaded blocks. -/
theorem pay_apply (m0 m1 : Vec Ideal S4096x128 .f32) (Wc0 Wc1 : Vec Ideal S128x128 .f32) (b0 b1 : Vec Ideal S1x128 .f32)
    (Wlo Whi : Vec Ideal S128x256 .f32) (bb1 : Vec Ideal S1x256 .f32) (Wb2 : Vec Ideal S256x128 .f32) (bb2 : Vec Ideal S1x128 .f32)
    (p : Fin 4096) (u : Fin 128) :
    k1_pay1 (F := Ideal) (k1_pay2 m0 m1 Wc0 Wc1 b0 b1 Wlo Whi) bb1 Wb2 bb2 (ix2 p u)
      = mlpAt (m0 : S4096x128.Idx → EReal) (m1 : S4096x128.Idx → EReal) (Wc0 : S128x128.Idx → EReal) (fun u => b0 (ix2 (0 : Fin 1) u)) (Wc1 : S128x128.Idx → EReal) (fun u => b1 (ix2 (0 : Fin 1) u)) (Wlo : S128x256.Idx → EReal) (Whi : S128x256.Idx → EReal) (fun j => bb1 (ix2 (0 : Fin 1) j))
          (Wb2 : S256x128.Idx → EReal) (fun u => bb2 (ix2 (0 : Fin 1) u)) p u := by
  unfold k1_pay1 mlpAt
  show (matmul (F := Ideal) dot_S4096x256_S256x128_S4096x128_1_0_0_1_n_n none (truncf .bf16 (maximumf (addf (k1_pay2 m0 m1 Wc0 Wc1 b0 b1 Wlo Whi) (broadcastTo S4096x256 (shapeCast S1x256 bb1 shapeCasts_S1x256_S1x256) broadcasts_S1x256_S4096x256)) (broadcast S4096x256 (Scalar.ofBits .f32 0x00000000#32))) bitsLt_bf16_f32) (truncf .bf16 Wb2 bitsLt_bf16_f32) (constant S4096x128 .f32 0x00000000#32) (ix2 p u)
      + broadcastTo S4096x128 (shapeCast S1x128 bb2 shapeCasts_S1x128_S1x128) broadcasts_S1x128_S4096x128 (ix2 p u) : EReal) = _
  rw [Products.out_apply, Cert.RowsByRows.biasRow_apply]
  refine congrArg₂ (· + ·) (Finset.sum_congr rfl fun j _ => congrArg₂ (· * ·) ?_ rfl) rfl
  unfold hiddenAt
  show (max (k1_pay2 (F := Ideal) m0 m1 Wc0 Wc1 b0 b1 Wlo Whi (ix2 p j) + broadcastTo S4096x256 (shapeCast S1x256 bb1 shapeCasts_S1x256_S1x256) broadcasts_S1x256_S4096x256 (ix2 p j)) (Ideal.ofBits .f32 0x00000000#32) : EReal) = _
  rw [bands_apply, Cert.RowsByRows.biasRow_apply]

/-! ## The blocks -/

/-- The block indices that move with the grid point: the blocks of means and the result block are block t along the rows. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_11.index t (0 : Fin 2) = t.val ∧ win1_11.index t (1 : Fin 2) = 0 :=
  (by decide +kernel : ∀ t : Fin grid1.N, _)

/-- The block indices that do not move: every weight array and bias row is block (0, 0) at every point. -/
theorem const_facts : ∀ t : Fin cfg1.N,
    win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0 :=
  (by decide +kernel : ∀ t : Fin grid1.N, _)

variable (V : (c : Dev nD) → (b : Ref sig .tc) → Buf (Elt Ideal) ((c : Thread nD τ).loc b))

/-- The first eye's block of means at point t is rows 4096·t … 4096·t + 4095 of its array of means. -/
theorem blk_mean0 (c : Dev nD) (t : Fin cfg1.N) (p : Fin 4096) (k : Fin 128) (q : Fin 65536) (hq : q.val = 4096 * t.val + p.val) :
    (iblk1 V c 0 t : Vec Ideal S4096x128 .f32) (ix2 p k) = (V c main_v22 : S65536x128.Idx → EReal) (ix2 q k) := by
  obtain ⟨m00, m01, m10, m11, -⟩ := idx_facts t
  unfold iblk1
  show V c main_v22 _ = V c main_v22 _
  refine congrArg _ (funext fun a => Fin.ext ?_)
  match a with
  | ⟨0, _⟩ => show win1_0.index t (0 : Fin 2) * 4096 + 1 * p.val = q.val; rw [m00, hq]; omega
  | ⟨1, _⟩ => show win1_0.index t (1 : Fin 2) * 128 + 1 * k.val = k.val; rw [m01]; omega

/-- The second eye's block of means at point t is rows 4096·t … 4096·t + 4095 of its array of means. -/
theorem blk_mean1 (c : Dev nD) (t : Fin cfg1.N) (p : Fin 4096) (k : Fin 128) (q : Fin 65536) (hq : q.val = 4096 * t.val + p.val) :
    (iblk1 V c 1 t : Vec Ideal S4096x128 .f32) (ix2 p k) = (V c main_v27 : S65536x128.Idx → EReal) (ix2 q k) := by
  obtain ⟨m00, m01, m10, m11, -⟩ := idx_facts t
  unfold iblk1
  show V c main_v27 _ = V c main_v27 _
  refine congrArg _ (funext fun a => Fin.ext ?_)
  match a with
  | ⟨0, _⟩ => show win1_1.index t (0 : Fin 2) * 4096 + 1 * p.val = q.val; rw [m10, hq]; omega
  | ⟨1, _⟩ => show win1_1.index t (1 : Fin 2) * 128 + 1 * k.val = k.val; rw [m11]; omega

/-- Window 2's block at every point is its whole array. -/
theorem blk2 (c : Dev nD) (t : Fin cfg1.N) : (iblk1 V c 2 t : Vec Ideal S128x128 .f32) = (V c main_arg6 : S128x128.Idx → EReal) := by
  obtain ⟨k2a, k2b, k3a, k3b, k4a, k4b, k5a, k5b, k6a, k6b, k7a, k7b, k8a, k8b, k9a, k9b, k10a, k10b⟩ := const_facts t
  funext j
  unfold iblk1
  show V c main_arg6 _ = V c main_arg6 _
  refine congrArg _ (funext fun a => Fin.ext ?_)
  match a with
  | ⟨0, _⟩ => show win1_2.index t (0 : Fin 2) * 128 + 1 * (j 0).val = (j 0).val; rw [k2a]; omega
  | ⟨1, _⟩ => show win1_2.index t (1 : Fin 2) * 128 + 1 * (j 1).val = (j 1).val; rw [k2b]; omega

/-- Window 3's block at every point is its whole array. -/
theorem blk3 (c : Dev nD) (t : Fin cfg1.N) : (iblk1 V c 3 t : Vec Ideal S1x128 .f32) = (V c main_v28 : S1x128.Idx → EReal) := by
  obtain ⟨k2a, k2b, k3a, k3b, k4a, k4b, k5a, k5b, k6a, k6b, k7a, k7b, k8a, k8b, k9a, k9b, k10a, k10b⟩ := const_facts t
  funext j
  unfold iblk1
  show V c main_v28 _ = V c main_v28 _
  refine congrArg _ (funext fun a => Fin.ext ?_)
  match a with
  | ⟨0, _⟩ => show win1_3.index t (0 : Fin 2) * 1 + 1 * (j 0).val = (j 0).val; rw [k3a]; omega
  | ⟨1, _⟩ => show win1_3.index t (1 : Fin 2) * 128 + 1 * (j 1).val = (j 1).val; rw [k3b]; omega

/-- Window 4's block at every point is its whole array. -/
theorem blk4 (c : Dev nD) (t : Fin cfg1.N) : (iblk1 V c 4 t : Vec Ideal S128x128 .f32) = (V c main_arg10 : S128x128.Idx → EReal) := by
  obtain ⟨k2a, k2b, k3a, k3b, k4a, k4b, k5a, k5b, k6a, k6b, k7a, k7b, k8a, k8b, k9a, k9b, k10a, k10b⟩ := const_facts t
  funext j
  unfold iblk1
  show V c main_arg10 _ = V c main_arg10 _
  refine congrArg _ (funext fun a => Fin.ext ?_)
  match a with
  | ⟨0, _⟩ => show win1_4.index t (0 : Fin 2) * 128 + 1 * (j 0).val = (j 0).val; rw [k4a]; omega
  | ⟨1, _⟩ => show win1_4.index t (1 : Fin 2) * 128 + 1 * (j 1).val = (j 1).val; rw [k4b]; omega

/-- Window 5's block at every point is its whole array. -/
theorem blk5 (c : Dev nD) (t : Fin cfg1.N) : (iblk1 V c 5 t : Vec Ideal S1x128 .f32) = (V c main_v29 : S1x128.Idx → EReal) := by
  obtain ⟨k2a, k2b, k3a, k3b, k4a, k4b, k5a, k5b, k6a, k6b, k7a, k7b, k8a, k8b, k9a, k9b, k10a, k10b⟩ := const_facts t
  funext j
  unfold iblk1
  show V c main_v29 _ = V c main_v29 _
  refine congrArg _ (funext fun a => Fin.ext ?_)
  match a with
  | ⟨0, _⟩ => show win1_5.index t (0 : Fin 2) * 1 + 1 * (j 0).val = (j 0).val; rw [k5a]; omega
  | ⟨1, _⟩ => show win1_5.index t (1 : Fin 2) * 128 + 1 * (j 1).val = (j 1).val; rw [k5b]; omega

/-- Window 6's block at every point is its whole array. -/
theorem blk6 (c : Dev nD) (t : Fin cfg1.N) : (iblk1 V c 6 t : Vec Ideal S128x256 .f32) = (V c main_v32 : S128x256.Idx → EReal) := by
  obtain ⟨k2a, k2b, k3a, k3b, k4a, k4b, k5a, k5b, k6a, k6b, k7a, k7b, k8a, k8b, k9a, k9b, k10a, k10b⟩ := const_facts t
  funext j
  unfold iblk1
  show V c main_v32 _ = V c main_v32 _
  refine congrArg _ (funext fun a => Fin.ext ?_)
  match a with
  | ⟨0, _⟩ => show win1_6.index t (0 : Fin 2) * 128 + 1 * (j 0).val = (j 0).val; rw [k6a]; omega
  | ⟨1, _⟩ => show win1_6.index t (1 : Fin 2) * 256 + 1 * (j 1).val = (j 1).val; rw [k6b]; omega

/-- Window 7's block at every point is its whole array. -/
theorem blk7 (c : Dev nD) (t : Fin cfg1.N) : (iblk1 V c 7 t : Vec Ideal S128x256 .f32) = (V c main_v33 : S128x256.Idx → EReal) := by
  obtain ⟨k2a, k2b, k3a, k3b, k4a, k4b, k5a, k5b, k6a, k6b, k7a, k7b, k8a, k8b, k9a, k9b, k10a, k10b⟩ := const_facts t
  funext j
  unfold iblk1
  show V c main_v33 _ = V c main_v33 _
  refine congrArg _ (funext fun a => Fin.ext ?_)
  match a with
  | ⟨0, _⟩ => show win1_7.index t (0 : Fin 2) * 128 + 1 * (j 0).val = (j 0).val; rw [k7a]; omega
  | ⟨1, _⟩ => show win1_7.index t (1 : Fin 2) * 256 + 1 * (j 1).val = (j 1).val; rw [k7b]; omega

/-- Window 8's block at every point is its whole array. -/
theorem blk8 (c : Dev nD) (t : Fin cfg1.N) : (iblk1 V c 8 t : Vec Ideal S1x256 .f32) = (V c main_v30 : S1x256.Idx → EReal) := by
  obtain ⟨k2a, k2b, k3a, k3b, k4a, k4b, k5a, k5b, k6a, k6b, k7a, k7b, k8a, k8b, k9a, k9b, k10a, k10b⟩ := const_facts t
  funext j
  unfold iblk1
  show V c main_v30 _ = V c main_v30 _
  refine congrArg _ (funext fun a => Fin.ext ?_)
  match a with
  | ⟨0, _⟩ => show win1_8.index t (0 : Fin 2) * 1 + 1 * (j 0).val = (j 0).val; rw [k8a]; omega
  | ⟨1, _⟩ => show win1_8.index t (1 : Fin 2) * 256 + 1 * (j 1).val = (j 1).val; rw [k8b]; omega

/-- Window 9's block at every point is its whole array. -/
theorem blk9 (c : Dev nD) (t : Fin cfg1.N) : (iblk1 V c 9 t : Vec Ideal S256x128 .f32) = (V c main_arg14 : S256x128.Idx → EReal) := by
  obtain ⟨k2a, k2b, k3a, k3b, k4a, k4b, k5a, k5b, k6a, k6b, k7a, k7b, k8a, k8b, k9a, k9b, k10a, k10b⟩ := const_facts t
  funext j
  unfold iblk1
  show V c main_arg14 _ = V c main_arg14 _
  refine congrArg _ (funext fun a => Fin.ext ?_)
  match a with
  | ⟨0, _⟩ => show win1_9.index t (0 : Fin 2) * 256 + 1 * (j 0).val = (j 0).val; rw [k9a]; omega
  | ⟨1, _⟩ => show win1_9.index t (1 : Fin 2) * 128 + 1 * (j 1).val = (j 1).val; rw [k9b]; omega

/-- Window 10's block at every point is its whole array. -/
theorem blk10 (c : Dev nD) (t : Fin cfg1.N) : (iblk1 V c 10 t : Vec Ideal S1x128 .f32) = (V c main_v31 : S1x128.Idx → EReal) := by
  obtain ⟨k2a, k2b, k3a, k3b, k4a, k4b, k5a, k5b, k6a, k6b, k7a, k7b, k8a, k8b, k9a, k9b, k10a, k10b⟩ := const_facts t
  funext j
  unfold iblk1
  show V c main_v31 _ = V c main_v31 _
  refine congrArg _ (funext fun a => Fin.ext ?_)
  match a with
  | ⟨0, _⟩ => show win1_10.index t (0 : Fin 2) * 1 + 1 * (j 0).val = (j 0).val; rw [k10a]; omega
  | ⟨1, _⟩ => show win1_10.index t (1 : Fin 2) * 128 + 1 * (j 1).val = (j 1).val; rw [k10b]; omega

/-! ## The result array -/

/-- The perceptron of the contents the stage is entered with: the two arrays of means, the weights, and the bias rows. -/
abbrev perceptron (c : Dev nD) : S65536x128.Idx → EReal :=
  mlp (V c main_v22 : S65536x128.Idx → EReal) (V c main_v27 : S65536x128.Idx → EReal)
    (V c main_arg6 : S128x128.Idx → EReal) (fun u => (V c main_v28 : S1x128.Idx → EReal) (ix2 (0 : Fin 1) u))
    (V c main_arg10 : S128x128.Idx → EReal) (fun u => (V c main_v29 : S1x128.Idx → EReal) (ix2 (0 : Fin 1) u))
    (V c main_v32 : S128x256.Idx → EReal) (V c main_v33 : S128x256.Idx → EReal) (fun j => (V c main_v30 : S1x256.Idx → EReal) (ix2 (0 : Fin 1) j))
    (V c main_arg14 : S256x128.Idx → EReal) (fun u => (V c main_v31 : S1x128.Idx → EReal) (ix2 (0 : Fin 1) u))

/-- What point t writes back is block t of the perceptron: entry (p, u) of the block is the perceptron at segment
    4096·t + p, which depends on the means only through that segment's row. -/
theorem flushed_eq (c : Dev nD) (t : Fin cfg1.N) :
    (dat1 V c).flushed 11 t = ((cfg1.win 11).blk t).view.read (Elt Ideal) (perceptron V c) := by
  have ht : t.val < 16 := lt_of_lt_of_eq t.isLt N_1
  obtain ⟨-, -, -, -, o0, o1⟩ := idx_facts t
  show (cfg1.win 11).cut (grid1.coords t) ((dat1 V c).after 11 t) = _
  rw [after1_11]
  unfold out1_11
  rw [View.canon_unit_zero hz]
  simp only [View.ld_unit_zero (S := S4096x128) hz, View.ld_unit_zero (S := S128x128) hz, View.ld_unit_zero (S := S1x128) hz,
    View.ld_unit_zero (S := S128x256) hz, View.ld_unit_zero (S := S1x256) hz, View.ld_unit_zero (S := S256x128) hz]
  funext j
  obtain ⟨p, u, rfl⟩ : ∃ (p : Fin 4096) (u : Fin 128), j = ix2 p u := ⟨j 0, j 1, eq_ix2 j⟩
  have hq : 4096 * t.val + p.val < 65536 := by have := p.isLt; omega
  have he : ((cfg1.win 11).blk t).view.emb (ix2 p u) = ix2 (⟨4096 * t.val + p.val, hq⟩ : Fin 65536) u := funext fun a => Fin.ext (by
    match a with
    | ⟨0, _⟩ => show win1_11.index t (0 : Fin 2) * 4096 + 1 * p.val = 4096 * t.val + p.val; rw [o0]; omega
    | ⟨1, _⟩ => show win1_11.index t (1 : Fin 2) * 128 + 1 * u.val = u.val; rw [o1]; omega)
  show k1_pay1 (k1_pay2 (iblk1 V c 0 t) (iblk1 V c 1 t) (iblk1 V c 2 t) (iblk1 V c 4 t) (iblk1 V c 3 t) (iblk1 V c 5 t) (iblk1 V c 6 t) (iblk1 V c 7 t)) (iblk1 V c 8 t) (iblk1 V c 9 t) (iblk1 V c 10 t) (ix2 p u)
    = perceptron V c (((cfg1.win 11).blk t).view.emb (ix2 p u))
  rw [he]
  refine (pay_apply (iblk1 V c 0 t) (iblk1 V c 1 t) (iblk1 V c 2 t) (iblk1 V c 4 t) (iblk1 V c 3 t) (iblk1 V c 5 t) (iblk1 V c 6 t) (iblk1 V c 7 t) (iblk1 V c 8 t) (iblk1 V c 9 t) (iblk1 V c 10 t) p u).trans ?_
  rw [blk2 V c t, blk3 V c t, blk4 V c t, blk5 V c t, blk6 V c t, blk7 V c t, blk8 V c t, blk9 V c t, blk10 V c t]
  exact mlpAt_row _ _ _ _ _ _ _ _ _ _ _ _ _ p ⟨4096 * t.val + p.val, hq⟩
    (fun k => blk_mean0 V c t p k ⟨4096 * t.val + p.val, hq⟩ rfl) (fun k => blk_mean1 V c t p k ⟨4096 * t.val + p.val, hq⟩ rfl) u

/-- Every segment row lies in the block of the point 'row / 4096'. -/
theorem cover (c : Dev nD) (i : S65536x128.Idx) :
    ∃ t : Fin cfg1.N, (cfg1.win 11).flush t = true ∧ i ∈ ((cfg1.win 11).blk t).view.set := by
  have h0 : (i 0).val < 65536 := (i 0).isLt
  have h1 : (i 1).val < 128 := (i 1).isLt
  have hN : (i 0).val / 4096 < cfg1.N := lt_of_lt_of_eq (by omega : (i 0).val / 4096 < 16) N_1.symm
  obtain ⟨-, -, -, -, o0, o1⟩ := idx_facts ⟨(i 0).val / 4096, hN⟩
  refine ⟨⟨(i 0).val / 4096, hN⟩, flush1_11 _, ?_⟩
  show i ∈ ((View.whole main_v34).slice (win1_11.rect ⟨(i 0).val / 4096, hN⟩)).set
  rw [View.set_slice_whole, Rect.mem_set_unit]
  intro a
  match a with
  | ⟨0, _⟩ =>
    show win1_11.index ⟨(i 0).val / 4096, hN⟩ (0 : Fin 2) * 4096 ≤ (i 0).val ∧ (i 0).val < win1_11.index ⟨(i 0).val / 4096, hN⟩ (0 : Fin 2) * 4096 + 4096
    rw [o0]; show (i 0).val / 4096 * 4096 ≤ (i 0).val ∧ (i 0).val < (i 0).val / 4096 * 4096 + 4096; omega
  | ⟨1, _⟩ =>
    show win1_11.index ⟨(i 0).val / 4096, hN⟩ (1 : Fin 2) * 128 ≤ (i 1).val ∧ (i 1).val < win1_11.index ⟨(i 0).val / 4096, hN⟩ (1 : Fin 2) * 128 + 128
    rw [o1]; omega

/-- So the result array ends holding the perceptron of the stage's entry contents. -/
theorem result (c : Dev nD) : (dat1 V c).arrAt 11 cfg1.N = perceptron V c :=
  (dat1 V c).arrAt_eq_of_cover 11 (perceptron V c) (fun t _ => flushed_eq V c t) (cover c)

end Cert.KernelIdeal.Stage1

end
-- ==== Proof.Between.lean ====
/-
  What the two stretches of host operations leave in the buffers the stages read, from ANY contents `X` before the
  stretch.

  The first stretch only re-lays the two per-node biases as rows.  The second widens the first stage's two outputs
  back to the wide format, averages each per segment (`segMean`: the features summed per segment by a scatter-add,
  divided by the segment's size — a scatter-add of ones — raised to at least one), re-lays the four remaining biases
  as rows, and cuts the 256 × 256 hidden weights into their low and high bands of 128 rows.  The averaging chain is
  carried whole and never opened: the other program applies the very same chain.
-/
import proofs.«131063_j79010218377372_2_alg».proof.Proof.Gen.KernelIdeal.Frame
import Idealize.ShloMosaic.Lib.StableHlo.Run

set_option maxRecDepth 16384

noncomputable section

namespace Cert.KernelIdeal.Between

open Cert.KernelIdeal Cert.KernelIdeal.Gen
open Idealize.ShloMosaic Idealize.ShloMosaic.TcCoe Idealize.SL.Sem Idealize.ShloMosaic.StableHlo

variable {F : FTy → Type} [FloatOps F]

/-- The per-segment mean of node features `h` under the segment ids `idx`: the features summed per segment, divided by
    the segment's size raised to at least one.  One chain of host operations, carried whole. -/
def segMean (h : (⟨S1048576x128, .f32⟩ : BufTy).Contents (Elt F)) (idx : (⟨S1048576, .i32⟩ : BufTy).Contents (Elt F)) : (⟨S65536x128, .f32⟩ : BufTy).Contents (Elt F) :=
  Host.divf
    (Host.scatterAdd scatter_S65536x128_S1048576x1_S1048576x128_1_0_0_1 (broadcastInDim S65536x128 ![] bcast_S_S65536x128 (constant S_ .f32 0x00000000#32))
      (broadcastInDim S1048576x1 ![0] bcast_S1048576_S1048576x1_0 idx) h)
    (broadcastInDim S65536x128 ![0, 1] bcast_S65536x1_S65536x128_0_1 (broadcastInDim S65536x1 ![0] bcast_S65536_S65536x1_0
      (maximumf
        (Host.scatterAdd scatter_S65536_S1048576x1_S1048576_n_0_0_1 (broadcastInDim S65536 ![] bcast_S_S65536 (constant S_ .f32 0x00000000#32))
          (broadcastInDim S1048576x1 ![0] bcast_S1048576_S1048576x1_0 idx) (broadcastInDim S1048576 ![] bcast_S_S1048576 (constant S_ .f32 0x3F800000#32)))
        (broadcastInDim S65536 ![] bcast_S_S65536 (constant S_ .f32 0x3F800000#32)))))

variable (X : Valuation τ sig (Elt F))

/-! ## The first stretch -/

/-- After the first host stretch `main_v0` holds the first eye's node bias as one row. -/
theorem ops0_main_v0 : (after hostOps0 X (Proc.devRef .tc main_v0) : (⟨S1x128, .f32⟩ : BufTy).Contents (Elt F)) = shapeCast S1x128 (X (Proc.devRef .tc main_arg5)) shapeCasts_S128_S1x128 := by
  dsimp only [hostOps0]
  after_results_simp <;> rfl

/-- After the first host stretch `main_v1` holds the second eye's node bias as one row. -/
theorem ops0_main_v1 : (after hostOps0 X (Proc.devRef .tc main_v1) : (⟨S1x128, .f32⟩ : BufTy).Contents (Elt F)) = shapeCast S1x128 (X (Proc.devRef .tc main_arg9)) shapeCasts_S128_S1x128 := by
  dsimp only [hostOps0]
  after_results_simp <;> rfl

/-- The first host stretch writes only the two bias rows: every argument array is as it found it. -/
theorem ops0_keep (b : Ref sig .tc) (h0 : b ≠ main_v0) (h1 : b ≠ main_v1) : after hostOps0 X (Proc.devRef .tc b) = X (Proc.devRef .tc b) := by
  dsimp only [hostOps0]
  simp only [after_cons, after_nil]
  rw [reshape_result_ne (h := h1), reshape_result_ne (h := h0)]

/-! ## The second stretch -/

/-- After the second host stretch `main_v22` holds the per-segment mean of the first eye's widened node layer. -/
theorem ops1_main_v22 : (after hostOps1 X (Proc.devRef .tc main_v22) : (⟨S65536x128, .f32⟩ : BufTy).Contents (Elt F))
    = segMean (extf .f32 (X (Proc.devRef .tc main_v2_0) : (⟨S1048576x128, .bf16⟩ : BufTy).Contents (Elt F)) bitsLt_bf16_f32) (X (Proc.devRef .tc main_arg2)) := by
  dsimp only [hostOps1]
  after_results_simp <;> rfl

/-- After the second host stretch `main_v27` holds the per-segment mean of the second eye's widened node layer. -/
theorem ops1_main_v27 : (after hostOps1 X (Proc.devRef .tc main_v27) : (⟨S65536x128, .f32⟩ : BufTy).Contents (Elt F))
    = segMean (extf .f32 (X (Proc.devRef .tc main_v2_1) : (⟨S1048576x128, .bf16⟩ : BufTy).Contents (Elt F)) bitsLt_bf16_f32) (X (Proc.devRef .tc main_arg3)) := by
  dsimp only [hostOps1]
  after_results_simp <;> rfl

/-- The second host stretch leaves `main_arg6` as it found it. -/
theorem ops1_main_arg6 : after hostOps1 X (Proc.devRef .tc main_arg6) = X (Proc.devRef .tc main_arg6) := by
  dsimp only [hostOps1]
  after_results_simp

/-- The second host stretch leaves `main_arg10` as it found it. -/
theorem ops1_main_arg10 : after hostOps1 X (Proc.devRef .tc main_arg10) = X (Proc.devRef .tc main_arg10) := by
  dsimp only [hostOps1]
  after_results_simp

/-- The second host stretch leaves `main_arg14` as it found it. -/
theorem ops1_main_arg14 : after hostOps1 X (Proc.devRef .tc main_arg14) = X (Proc.devRef .tc main_arg14) := by
  dsimp only [hostOps1]
  after_results_simp

/-- After the second host stretch `main_v28` holds the bias `main_arg7` as one row. -/
theorem ops1_main_v28 : (after hostOps1 X (Proc.devRef .tc main_v28) : (⟨S1x128, .f32⟩ : BufTy).Contents (Elt F)) = shapeCast S1x128 (X (Proc.devRef .tc main_arg7)) shapeCasts_S128_S1x128 := by
  dsimp only [hostOps1]
  after_results_simp <;> rfl

/-- After the second host stretch `main_v29` holds the bias `main_arg11` as one row. -/
theorem ops1_main_v29 : (after hostOps1 X (Proc.devRef .tc main_v29) : (⟨S1x128, .f32⟩ : BufTy).Contents (Elt F)) = shapeCast S1x128 (X (Proc.devRef .tc main_arg11)) shapeCasts_S128_S1x128 := by
  dsimp only [hostOps1]
  after_results_simp <;> rfl

/-- After the second host stretch `main_v30` holds the bias `main_arg13` as one row. -/
theorem ops1_main_v30 : (after hostOps1 X (Proc.devRef .tc main_v30) : (⟨S1x256, .f32⟩ : BufTy).Contents (Elt F)) = shapeCast S1x256 (X (Proc.devRef .tc main_arg13)) shapeCasts_S256_S1x256 := by
  dsimp only [hostOps1]
  after_results_simp <;> rfl

/-- After the second host stretch `main_v31` holds the bias `main_arg15` as one row. -/
theorem ops1_main_v31 : (after hostOps1 X (Proc.devRef .tc main_v31) : (⟨S1x128, .f32⟩ : BufTy).Contents (Elt F)) = shapeCast S1x128 (X (Proc.devRef .tc main_arg15)) shapeCasts_S128_S1x128 := by
  dsimp only [hostOps1]
  after_results_simp <;> rfl

/-- After the second host stretch `main_v32` holds rows 0 … 127 of the hidden weights. -/
theorem ops1_main_v32 : (after hostOps1 X (Proc.devRef .tc main_v32) : (⟨S128x256, .f32⟩ : BufTy).Contents (Elt F))
    = extractStridedSlice S128x256 ![0, 0] (X (Proc.devRef .tc main_arg12)) slices_S256x256_S128x256_0_0 := by
  dsimp only [hostOps1]
  after_results_simp <;> rfl

/-- After the second host stretch `main_v33` holds rows 128 … 255 of the hidden weights. -/
theorem ops1_main_v33 : (after hostOps1 X (Proc.devRef .tc main_v33) : (⟨S128x256, .f32⟩ : BufTy).Contents (Elt F))
    = extractStridedSlice S128x256 ![128, 0] (X (Proc.devRef .tc main_arg12)) slices_S256x256_S128x256_128_0 := by
  dsimp only [hostOps1]
  after_results_simp <;> rfl

end Cert.KernelIdeal.Between

end
-- ==== Proof.Compose.lean ====
/-
  The result array at the end of the run, as one function of the launch arrays.

  Walking the fold of buffer contents back from the last boundary: the result array holds the perceptron of what the
  second stage was entered with; its two arrays of means are the per-segment means of the first stage's two output
  arrays under the two arrays of segment ids; those output arrays are the dense layer with positive part of the node
  arrays, weights and biases the first stage was entered with, which are the launch arrays (a bias re-laid as a row
  reads the same numbers; the rounding to a narrower format and back is the identity on the extended reals; the two
  cuts of the hidden weights are its low and high bands).  No host operation and no stage writes an argument array.
-/
import proofs.«131063_j79010218377372_2_alg».proof.Proof.Stage0
import proofs.«131063_j79010218377372_2_alg».proof.Proof.Stage1
import proofs.«131063_j79010218377372_2_alg».proof.Proof.Between
import Idealize.ShloMosaic.Lib.ValueLayout

set_option maxRecDepth 16384

noncomputable section

open scoped BigOperators

namespace Cert.KernelIdeal.Whole

open Cert.KernelIdeal Cert.KernelIdeal.Gen Cert.EyeMlp
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The result as a function of the launch arrays: the perceptron of the two eyes' per-segment means of their node layers. -/
abbrev value (c : Dev nD) : S65536x128.Idx → EReal :=
  mlp
    (Between.segMean (F := Ideal) (denseRelu (m ((c : Thread nD τ).loc main_arg0) : S1048576x64.Idx → EReal) (m ((c : Thread nD τ).loc main_arg4) : S64x128.Idx → EReal) (fun u => (m ((c : Thread nD τ).loc main_arg5) : S128.Idx → EReal) (ix1 u))) (m ((c : Thread nD τ).loc main_arg2)))
    (Between.segMean (F := Ideal) (denseRelu (m ((c : Thread nD τ).loc main_arg1) : S1048576x64.Idx → EReal) (m ((c : Thread nD τ).loc main_arg8) : S64x128.Idx → EReal) (fun u => (m ((c : Thread nD τ).loc main_arg9) : S128.Idx → EReal) (ix1 u))) (m ((c : Thread nD τ).loc main_arg3)))
    (m ((c : Thread nD τ).loc main_arg6) : S128x128.Idx → EReal) (fun u => (m ((c : Thread nD τ).loc main_arg7) : S128.Idx → EReal) (ix1 u)) (m ((c : Thread nD τ).loc main_arg10) : S128x128.Idx → EReal) (fun u => (m ((c : Thread nD τ).loc main_arg11) : S128.Idx → EReal) (ix1 u))
    (lowBand (m ((c : Thread nD τ).loc main_arg12) : S256x256.Idx → EReal)) (highBand (m ((c : Thread nD τ).loc main_arg12) : S256x256.Idx → EReal)) (fun u => (m ((c : Thread nD τ).loc main_arg13) : S256.Idx → EReal) (ix1 u))
    (m ((c : Thread nD τ).loc main_arg14) : S256x128.Idx → EReal) (fun u => (m ((c : Thread nD τ).loc main_arg15) : S128.Idx → EReal) (ix1 u))

/-! ## Buffers no stage and no host operation has written -/

/-- At the first stage's entry every buffer but the two bias rows is as launched. -/
theorem entry0 (c : Dev nD) (b : Ref sig .tc) (h0 : b ≠ main_v0) (h1 : b ≠ main_v1) : V1 m ρ c b = m ((c : Thread nD τ).loc b) :=
  Between.ops0_keep (W0 m ρ c) b h0 h1

/-- At the first stage's exit a buffer that is none of the stage's arrays, nor a bias row, is as launched. -/
theorem exit0 (c : Dev nD) (b : Ref sig .tc) (hb : ∀ w, Pipeline.arrRef spec0 w ≠ b) (h0 : b ≠ main_v0) (h1 : b ≠ main_v1) :
    W2 m ρ c (Proc.devRef .tc b) = m ((c : Thread nD τ).loc b) :=
  (W2_of_ne m ρ c b hb).trans (Between.ops0_keep (W0 m ρ c) b h0 h1)

/-! ## The first stage's outputs -/

/-- The first eye's node-layer array after the first stage: the dense layer of the launch arrays. -/
theorem nodes0 (c : Dev nD) :
    (W2 m ρ c (Proc.devRef .tc main_v2_0) : S1048576x128.Idx → EReal)
      = denseRelu (m ((c : Thread nD τ).loc main_arg0) : S1048576x64.Idx → EReal) (m ((c : Thread nD τ).loc main_arg4) : S64x128.Idx → EReal) (fun u => (m ((c : Thread nD τ).loc main_arg5) : S128.Idx → EReal) (ix1 u)) := by
  refine (W2_arr m ρ c 6).trans ((Stage0.nodes0 (V1 m ρ) c).trans ?_)
  show denseRelu (V1 m ρ c main_arg0 : S1048576x64.Idx → EReal) (V1 m ρ c main_arg4 : S64x128.Idx → EReal) (fun u => (V1 m ρ c main_v0 : S1x128.Idx → EReal) (ix2 (0 : Fin 1) u)) = _
  rw [entry0 m ρ c main_arg0 (by decide) (by decide), entry0 m ρ c main_arg4 (by decide) (by decide)]
  refine congrArg _ (funext fun u => ?_)
  show (after hostOps0 (W0 m ρ c) (Proc.devRef .tc main_v0) : S1x128.Idx → EReal) (ix2 (0 : Fin 1) u) = _
  rw [Between.ops0_main_v0]
  exact shapeCast_a_1a_apply _ _ (0 : Fin 1) u

/-- The second eye's node-layer array after the first stage. -/
theorem nodes1 (c : Dev nD) :
    (W2 m ρ c (Proc.devRef .tc main_v2_1) : S1048576x128.Idx → EReal)
      = denseRelu (m ((c : Thread nD τ).loc main_arg1) : S1048576x64.Idx → EReal) (m ((c : Thread nD τ).loc main_arg8) : S64x128.Idx → EReal) (fun u => (m ((c : Thread nD τ).loc main_arg9) : S128.Idx → EReal) (ix1 u)) := by
  refine (W2_arr m ρ c 7).trans ((Stage0.nodes1 (V1 m ρ) c).trans ?_)
  show denseRelu (V1 m ρ c main_arg1 : S1048576x64.Idx → EReal) (V1 m ρ c main_arg8 : S64x128.Idx → EReal) (fun u => (V1 m ρ c main_v1 : S1x128.Idx → EReal) (ix2 (0 : Fin 1) u)) = _
  rw [entry0 m ρ c main_arg1 (by decide) (by decide), entry0 m ρ c main_arg8 (by decide) (by decide)]
  refine congrArg _ (funext fun u => ?_)
  show (after hostOps0 (W0 m ρ c) (Proc.devRef .tc main_v1) : S1x128.Idx → EReal) (ix2 (0 : Fin 1) u) = _
  rw [Between.ops0_main_v1]
  exact shapeCast_a_1a_apply _ _ (0 : Fin 1) u

/-! ## The second stage's inputs -/

/-- The first eye's array of means at the second stage's entry. -/
theorem means0 (c : Dev nD) : (V3 m ρ c main_v22 : S65536x128.Idx → EReal)
    = Between.segMean (F := Ideal) (denseRelu (m ((c : Thread nD τ).loc main_arg0) : S1048576x64.Idx → EReal) (m ((c : Thread nD τ).loc main_arg4) : S64x128.Idx → EReal) (fun u => (m ((c : Thread nD τ).loc main_arg5) : S128.Idx → EReal) (ix1 u))) (m ((c : Thread nD τ).loc main_arg2)) := by
  show (after hostOps1 (W2 m ρ c) (Proc.devRef .tc main_v22) : S65536x128.Idx → EReal) = _
  rw [Between.ops1_main_v22, nodes0 m ρ c, exit0 m ρ c main_arg2 (by decide) (by decide) (by decide)]
  rfl

/-- The second eye's array of means at the second stage's entry. -/
theorem means1 (c : Dev nD) : (V3 m ρ c main_v27 : S65536x128.Idx → EReal)
    = Between.segMean (F := Ideal) (denseRelu (m ((c : Thread nD τ).loc main_arg1) : S1048576x64.Idx → EReal) (m ((c : Thread nD τ).loc main_arg8) : S64x128.Idx → EReal) (fun u => (m ((c : Thread nD τ).loc main_arg9) : S128.Idx → EReal) (ix1 u))) (m ((c : Thread nD τ).loc main_arg3)) := by
  show (after hostOps1 (W2 m ρ c) (Proc.devRef .tc main_v27) : S65536x128.Idx → EReal) = _
  rw [Between.ops1_main_v27, nodes1 m ρ c, exit0 m ρ c main_arg3 (by decide) (by decide) (by decide)]
  rfl

/-- A weight array the second stage reads whole is as launched. -/
theorem weights (c : Dev nD) (b : Ref sig .tc) (hk : after hostOps1 (W2 m ρ c) (Proc.devRef .tc b) = W2 m ρ c (Proc.devRef .tc b))
    (hb : ∀ w, Pipeline.arrRef spec0 w ≠ b) (h0 : b ≠ main_v0) (h1 : b ≠ main_v1) : V3 m ρ c b = m ((c : Thread nD τ).loc b) :=
  hk.trans (exit0 m ρ c b hb h0 h1)

/-- The low band of the hidden weights at the second stage's entry. -/
theorem low (c : Dev nD) : (V3 m ρ c main_v32 : S128x256.Idx → EReal) = lowBand (m ((c : Thread nD τ).loc main_arg12) : S256x256.Idx → EReal) := by
  show (after hostOps1 (W2 m ρ c) (Proc.devRef .tc main_v32) : S128x256.Idx → EReal) = _
  rw [Between.ops1_main_v32, exit0 m ρ c main_arg12 (by decide) (by decide) (by decide)]
  funext i
  obtain ⟨k, j, rfl⟩ : ∃ (k : Fin 128) (j : Fin 256), i = ix2 k j := ⟨i 0, i 1, eq_ix2 i⟩
  refine extractStridedSlice_apply _ _ _ (ix2 k j) (ix2 (Fin.castAdd 128 k) j) fun a => ?_
  match a with
  | ⟨0, _⟩ => exact (Nat.zero_add _).symm
  | ⟨1, _⟩ => exact (Nat.zero_add _).symm

/-- The high band of the hidden weights at the second stage's entry. -/
theorem high (c : Dev nD) : (V3 m ρ c main_v33 : S128x256.Idx → EReal) = highBand (m ((c : Thread nD τ).loc main_arg12) : S256x256.Idx → EReal) := by
  show (after hostOps1 (W2 m ρ c) (Proc.devRef .tc main_v33) : S128x256.Idx → EReal) = _
  rw [Between.ops1_main_v33, exit0 m ρ c main_arg12 (by decide) (by decide) (by decide)]
  funext i
  obtain ⟨k, j, rfl⟩ : ∃ (k : Fin 128) (j : Fin 256), i = ix2 k j := ⟨i 0, i 1, eq_ix2 i⟩
  refine extractStridedSlice_apply _ _ _ (ix2 k j) (ix2 (Fin.natAdd 128 k) j) fun a => ?_
  match a with
  | ⟨0, _⟩ => rfl
  | ⟨1, _⟩ => exact (Nat.zero_add _).symm

/-! ## The result -/

/-- The result array's final contents are `value` of the launch arrays. -/
theorem result_eq (c : Dev nD) : W4 m ρ c (Proc.devRef .tc main_v34) = value m c := by
  refine (W4_arr m ρ c 11).trans ((Stage1.result (V3 m ρ) c).trans ?_)
  show mlp (V3 m ρ c main_v22 : S65536x128.Idx → EReal) (V3 m ρ c main_v27 : S65536x128.Idx → EReal)
      (V3 m ρ c main_arg6 : S128x128.Idx → EReal) (fun u => (V3 m ρ c main_v28 : S1x128.Idx → EReal) (ix2 (0 : Fin 1) u))
      (V3 m ρ c main_arg10 : S128x128.Idx → EReal) (fun u => (V3 m ρ c main_v29 : S1x128.Idx → EReal) (ix2 (0 : Fin 1) u))
      (V3 m ρ c main_v32 : S128x256.Idx → EReal) (V3 m ρ c main_v33 : S128x256.Idx → EReal) (fun j => (V3 m ρ c main_v30 : S1x256.Idx → EReal) (ix2 (0 : Fin 1) j))
      (V3 m ρ c main_arg14 : S256x128.Idx → EReal) (fun u => (V3 m ρ c main_v31 : S1x128.Idx → EReal) (ix2 (0 : Fin 1) u)) = _
  have r28 : (fun u => (V3 m ρ c main_v28 : S1x128.Idx → EReal) (ix2 (0 : Fin 1) u)) = (fun u => (m ((c : Thread nD τ).loc main_arg7) : S128.Idx → EReal) (ix1 u)) := funext fun u => by
    show (after hostOps1 (W2 m ρ c) (Proc.devRef .tc main_v28) : S1x128.Idx → EReal) (ix2 (0 : Fin 1) u) = _
    rw [Between.ops1_main_v28, exit0 m ρ c main_arg7 (by decide) (by decide) (by decide)]
    exact shapeCast_a_1a_apply _ _ (0 : Fin 1) u
  have r29 : (fun u => (V3 m ρ c main_v29 : S1x128.Idx → EReal) (ix2 (0 : Fin 1) u)) = (fun u => (m ((c : Thread nD τ).loc main_arg11) : S128.Idx → EReal) (ix1 u)) := funext fun u => by
    show (after hostOps1 (W2 m ρ c) (Proc.devRef .tc main_v29) : S1x128.Idx → EReal) (ix2 (0 : Fin 1) u) = _
    rw [Between.ops1_main_v29, exit0 m ρ c main_arg11 (by decide) (by decide) (by decide)]
    exact shapeCast_a_1a_apply _ _ (0 : Fin 1) u
  have r30 : (fun j => (V3 m ρ c main_v30 : S1x256.Idx → EReal) (ix2 (0 : Fin 1) j)) = (fun j => (m ((c : Thread nD τ).loc main_arg13) : S256.Idx → EReal) (ix1 j)) := funext fun j => by
    show (after hostOps1 (W2 m ρ c) (Proc.devRef .tc main_v30) : S1x256.Idx → EReal) (ix2 (0 : Fin 1) j) = _
    rw [Between.ops1_main_v30, exit0 m ρ c main_arg13 (by decide) (by decide) (by decide)]
    exact shapeCast_a_1a_apply _ _ (0 : Fin 1) j
  have r31 : (fun u => (V3 m ρ c main_v31 : S1x128.Idx → EReal) (ix2 (0 : Fin 1) u)) = (fun u => (m ((c : Thread nD τ).loc main_arg15) : S128.Idx → EReal) (ix1 u)) := funext fun u => by
    show (after hostOps1 (W2 m ρ c) (Proc.devRef .tc main_v31) : S1x128.Idx → EReal) (ix2 (0 : Fin 1) u) = _
    rw [Between.ops1_main_v31, exit0 m ρ c main_arg15 (by decide) (by decide) (by decide)]
    exact shapeCast_a_1a_apply _ _ (0 : Fin 1) u
  rw [r28, r29, r30, r31, means0 m ρ c, means1 m ρ c, low m ρ c, high m ρ c,
    weights m ρ c main_arg6 (Between.ops1_main_arg6 _) (by decide) (by decide) (by decide),
    weights m ρ c main_arg10 (Between.ops1_main_arg10 _) (by decide) (by decide) (by decide),
    weights m ρ c main_arg14 (Between.ops1_main_arg14 _) (by decide) (by decide) (by decide)]

end Cert.KernelIdeal.Whole

end
-- ==== Proof.RefFirst.lean ====
/-
  The reference's per-node layer, read at an entry.  For each eye it forms the product of the node features with the
  weights, adds the bias repeated down the rows, and takes the positive part against the zero word; at entry (p, u)
  that is max (Σ_k x (p, k) · W (k, u) + b u, 0), the dense layer of the specification.
-/
import proofs.«131063_j79010218377372_2_alg».proof.Proof.Gen.ReferenceIdeal.Read
import proofs.«131063_j79010218377372_2_alg».proof.Proof.Layers

noncomputable section

open scoped BigOperators

namespace Cert.ReferenceIdeal.Layer

open Cert.ReferenceIdeal Cert.ReferenceIdeal.Gen Cert.ReferenceIdeal.Read Cert.EyeMlp
open Idealize.ShloMosaic Idealize.ShloMosaic.TcCoe Idealize.ShloMosaic.ValueIdx

/-- The first eye's node layer is the dense layer with positive part of its features, weights and bias. -/
theorem first_eye0 (x0 : (⟨S1048576x64, .f32⟩ : BufTy).Contents (Elt Ideal)) (x4 : (⟨S64x128, .f32⟩ : BufTy).Contents (Elt Ideal))
    (x5 : (⟨S128, .f32⟩ : BufTy).Contents (Elt Ideal)) :
    val_main_v4 (F := Ideal) x0 x4 x5 = denseRelu (x0 : S1048576x64.Idx → EReal) (x4 : S64x128.Idx → EReal) (fun u => (x5 : S128.Idx → EReal) (ix1 u)) := by
  funext i
  obtain ⟨p, u, rfl⟩ : ∃ (p : Fin 1048576) (u : Fin 128), i = ix2 p u := ⟨i 0, i 1, eq_ix2 i⟩
  have el : ∀ k : Fin 64, lidx_main_v0 (ix2 p u) k = ix2 p k := fun k => funext fun a => Fin.ext (by
    match a with
    | ⟨0, _⟩ => rfl
    | ⟨1, _⟩ => rfl)
  have er : ∀ k : Fin 64, ridx_main_v0 (ix2 p u) k = ix2 k u := fun k => funext fun a => Fin.ext (by
    match a with
    | ⟨0, _⟩ => rfl
    | ⟨1, _⟩ => rfl)
  have eb : idx_main_v1 (idx_main_v2 (ix2 p u)) = ix1 u := funext fun a => Fin.ext (by
    match a with
    | ⟨0, _⟩ => rfl)
  rw [val_main_v4_apply, val_main_v3_apply, val_main_v0_apply, val_main_v2_apply, val_main_v1_apply, val_main_call0_v0_apply, val_main_call0_cst_apply]
  simp only [el, er, eb]
  rfl

/-- The second eye's node layer, likewise. -/
theorem first_eye1 (x1 : (⟨S1048576x64, .f32⟩ : BufTy).Contents (Elt Ideal)) (x8 : (⟨S64x128, .f32⟩ : BufTy).Contents (Elt Ideal))
    (x9 : (⟨S128, .f32⟩ : BufTy).Contents (Elt Ideal)) :
    val_main_v26 (F := Ideal) x1 x8 x9 = denseRelu (x1 : S1048576x64.Idx → EReal) (x8 : S64x128.Idx → EReal) (fun u => (x9 : S128.Idx → EReal) (ix1 u)) := by
  funext i
  obtain ⟨p, u, rfl⟩ : ∃ (p : Fin 1048576) (u : Fin 128), i = ix2 p u := ⟨i 0, i 1, eq_ix2 i⟩
  have el : ∀ k : Fin 64, lidx_main_v22 (ix2 p u) k = ix2 p k := fun k => funext fun a => Fin.ext (by
    match a with
    | ⟨0, _⟩ => rfl
    | ⟨1, _⟩ => rfl)
  have er : ∀ k : Fin 64, ridx_main_v22 (ix2 p u) k = ix2 k u := fun k => funext fun a => Fin.ext (by
    match a with
    | ⟨0, _⟩ => rfl
    | ⟨1, _⟩ => rfl)
  have eb : idx_main_v23 (idx_main_v24 (ix2 p u)) = ix1 u := funext fun a => Fin.ext (by
    match a with
    | ⟨0, _⟩ => rfl)
  rw [val_main_v26_apply, val_main_v25_apply, val_main_v22_apply, val_main_v24_apply, val_main_v23_apply, val_main_call2_v0_apply, val_main_call2_cst_apply]
  simp only [el, er, eb]
  rfl

end Cert.ReferenceIdeal.Layer

end
-- ==== Proof.LibTwoBands.lean ====
/-
  Two arrays of a rows and 128 columns laid side by side into one array of a rows and 256 columns, read at a column
  of the low band (columns 0 … 127) or of the high band (columns 128 … 255): the first array at that column, or the
  second array at the column less 128.  Nothing here knows a program.
-/
import Idealize.ShloMosaic.Lib.Pipeline.Value
import Idealize.ShloMosaic.Lib.ValueIdx

noncomputable section

namespace Cert.TwoBands

open Idealize.ShloMosaic Idealize.ShloMosaic.ValueIdx

variable {α : Type} {a : ℕ}

/-- A column of the low band reads the first array. -/
theorem concat_lo (x y : (⟨2, ![a, 128]⟩ : Shape).Idx → α)
    (h : Shape.Concatenates [(⟨2, ![a, 128]⟩ : Shape), (⟨2, ![a, 128]⟩ : Shape)] ⟨2, ![a, 256]⟩ 1) (p : Fin a) (k : Fin 128) :
    concatenate ⟨2, ![a, 256]⟩ 1 [⟨⟨2, ![a, 128]⟩, x⟩, ⟨⟨2, ![a, 128]⟩, y⟩] h (ix2 p (Fin.castAdd 128 k)) = x (ix2 p k) := by
  refine concatenate_apply_piece (t := ⟨2, ![a, 256]⟩) 1 [⟨⟨2, ![a, 128]⟩, x⟩, ⟨⟨2, ![a, 128]⟩, y⟩] h (ix2 p (Fin.castAdd 128 k)) 0 (Nat.zero_lt_succ 1) ⟨2, ![a, 128]⟩ x rfl rfl 0 rfl (ix2 p k) (fun b hb => ?_) ?_
  · match b with
    | ⟨0, _⟩ => rfl
    | ⟨1, _⟩ => exact absurd rfl hb
  · exact Nat.zero_add _

/-- A column of the high band reads the second array, 128 columns to the left. -/
theorem concat_hi (x y : (⟨2, ![a, 128]⟩ : Shape).Idx → α)
    (h : Shape.Concatenates [(⟨2, ![a, 128]⟩ : Shape), (⟨2, ![a, 128]⟩ : Shape)] ⟨2, ![a, 256]⟩ 1) (p : Fin a) (k : Fin 128) :
    concatenate ⟨2, ![a, 256]⟩ 1 [⟨⟨2, ![a, 128]⟩, x⟩, ⟨⟨2, ![a, 128]⟩, y⟩] h (ix2 p (Fin.natAdd 128 k)) = y (ix2 p k) := by
  refine concatenate_apply_piece (t := ⟨2, ![a, 256]⟩) 1 [⟨⟨2, ![a, 128]⟩, x⟩, ⟨⟨2, ![a, 128]⟩, y⟩] h (ix2 p (Fin.natAdd 128 k)) 1 (Nat.lt_succ_self 1) ⟨2, ![a, 128]⟩ y rfl rfl 128 rfl (ix2 p k) (fun b hb => ?_) ?_
  · match b with
    | ⟨0, _⟩ => rfl
    | ⟨1, _⟩ => exact absurd rfl hb
  · rfl

end Cert.TwoBands

end
-- ==== Proof.RefTail.lean ====
/-
  The reference after its per-node layers, read at an entry.

  The per-segment averaging of an eye's node features — scatter-add of the features into 65536 segments, scatter-add of
  ones for the segment sizes, the sizes raised to at least one, the quotient — is named `segMean` and never opened:
  the other program applies the very same chain.  On the two arrays of means the reference computes each eye's dense
  layer with positive part, lays the two 128-feature arrays side by side, contracts the 256 features against the
  256 × 256 hidden weights, adds the bias, takes the positive part, and applies the output layer.  Contracting the
  side-by-side features is the sum over the first 128 rows against the first eye plus the sum over the last 128 rows
  against the second eye: the specification's perceptron.
-/
import proofs.«131063_j79010218377372_2_alg».proof.Proof.Gen.ReferenceIdeal.Read
import proofs.«131063_j79010218377372_2_alg».proof.Proof.Layers
import proofs.«131063_j79010218377372_2_alg».proof.Proof.LibTwoBands

noncomputable section

open scoped BigOperators

namespace Cert.ReferenceIdeal.Tail

open Cert.ReferenceIdeal Cert.ReferenceIdeal.Gen Cert.ReferenceIdeal.Read Cert.EyeMlp
open Idealize.ShloMosaic Idealize.ShloMosaic.TcCoe Idealize.ShloMosaic.ValueIdx

/-- The per-segment mean of node features `h` under the segment ids `idx`: the features summed per segment, divided by
    the segment's size raised to at least one.  One chain of host operations, carried whole. -/
def segMean {F : FTy → Type} [FloatOps F] (h : (⟨S1048576x128, .f32⟩ : BufTy).Contents (Elt F)) (idx : (⟨S1048576, .i32⟩ : BufTy).Contents (Elt F)) :
    (⟨S65536x128, .f32⟩ : BufTy).Contents (Elt F) :=
  Host.divf
    (Host.scatterAdd scatter_S65536x128_S1048576x1_S1048576x128_1_0_0_1 (broadcastInDim S65536x128 ![] bcast_S_S65536x128 (constant S_ .f32 0x00000000#32))
      (broadcastInDim S1048576x1 ![0] bcast_S1048576_S1048576x1_0 idx) h)
    (broadcastInDim S65536x128 ![0, 1] bcast_S65536x1_S65536x128_0_1 (broadcastInDim S65536x1 ![0] bcast_S65536_S65536x1_0
      (maximumf
        (Host.scatterAdd scatter_S65536_S1048576x1_S1048576_n_0_0_1 (broadcastInDim S65536 ![] bcast_S_S65536 (constant S_ .f32 0x00000000#32))
          (broadcastInDim S1048576x1 ![0] bcast_S1048576_S1048576x1_0 idx) (broadcastInDim S1048576 ![] bcast_S_S1048576 (constant S_ .f32 0x3F800000#32)))
        (broadcastInDim S65536 ![] bcast_S_S65536 (constant S_ .f32 0x3F800000#32)))))

section

variable (x0 x1 : (⟨S1048576x64, .f32⟩ : BufTy).Contents (Elt Ideal)) (x2 x3 : (⟨S1048576, .i32⟩ : BufTy).Contents (Elt Ideal))
  (x4 : (⟨S64x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
  (x8 : (⟨S64x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal))
  (x12 : (⟨S256x256, .f32⟩ : BufTy).Contents (Elt Ideal)) (x13 : (⟨S256, .f32⟩ : BufTy).Contents (Elt Ideal)) (x14 : (⟨S256x128, .f32⟩ : BufTy).Contents (Elt Ideal)) (x15 : (⟨S128, .f32⟩ : BufTy).Contents (Elt Ideal))

/-- The first eye's segment means are the shared averaging of its node layer. -/
theorem mean0 : val_main_v16 (F := Ideal) x0 x2 x4 x5 = segMean (val_main_v4 (F := Ideal) x0 x4 x5) x2 := rfl

/-- The second eye's segment means, likewise. -/
theorem mean1 : val_main_v38 (F := Ideal) x1 x3 x8 x9 = segMean (val_main_v26 (F := Ideal) x1 x8 x9) x3 := rfl

/-- The first eye's per-segment layer at entry (p, k): the dense layer with positive part of the eye's segment means. -/
theorem eye0_apply (p : Fin 65536) (k : Fin 128) :
    val_main_v21 (F := Ideal) x0 x2 x4 x5 x6 x7 (ix2 p k)
      = denseReluAt (val_main_v16 (F := Ideal) x0 x2 x4 x5 : S65536x128.Idx → EReal) (x6 : S128x128.Idx → EReal) (fun u => (x7 : S128.Idx → EReal) (ix1 u)) p k := by
  have el : ∀ q : Fin 128, lidx_main_v17 (ix2 p k) q = ix2 p q := fun q => funext fun a => Fin.ext (by
    match a with
    | ⟨0, _⟩ => rfl
    | ⟨1, _⟩ => rfl)
  have er : ∀ q : Fin 128, ridx_main_v17 (ix2 p k) q = ix2 q k := fun q => funext fun a => Fin.ext (by
    match a with
    | ⟨0, _⟩ => rfl
    | ⟨1, _⟩ => rfl)
  have eb : idx_main_v18 (idx_main_v19 (ix2 p k)) = ix1 k := funext fun a => Fin.ext (by
    match a with
    | ⟨0, _⟩ => rfl)
  rw [val_main_v21_apply, val_main_v20_apply, val_main_v17_apply, val_main_v19_apply, val_main_v18_apply, val_main_call1_v0_apply, val_main_call1_cst_apply]
  simp only [el, er, eb]
  rfl

/-- The second eye's per-segment layer at entry (p, k): the dense layer with positive part of the eye's segment means. -/
theorem eye1_apply (p : Fin 65536) (k : Fin 128) :
    val_main_v43 (F := Ideal) x1 x3 x8 x9 x10 x11 (ix2 p k)
      = denseReluAt (val_main_v38 (F := Ideal) x1 x3 x8 x9 : S65536x128.Idx → EReal) (x10 : S128x128.Idx → EReal) (fun u => (x11 : S128.Idx → EReal) (ix1 u)) p k := by
  have el : ∀ q : Fin 128, lidx_main_v39 (ix2 p k) q = ix2 p q := fun q => funext fun a => Fin.ext (by
    match a with
    | ⟨0, _⟩ => rfl
    | ⟨1, _⟩ => rfl)
  have er : ∀ q : Fin 128, ridx_main_v39 (ix2 p k) q = ix2 q k := fun q => funext fun a => Fin.ext (by
    match a with
    | ⟨0, _⟩ => rfl
    | ⟨1, _⟩ => rfl)
  have eb : idx_main_v40 (idx_main_v41 (ix2 p k)) = ix1 k := funext fun a => Fin.ext (by
    match a with
    | ⟨0, _⟩ => rfl)
  rw [val_main_v43_apply, val_main_v42_apply, val_main_v39_apply, val_main_v41_apply, val_main_v40_apply, val_main_call3_v0_apply, val_main_call3_cst_apply]
  simp only [el, er, eb]
  rfl

/-- Hidden unit j of segment p: the side-by-side features against all 256 rows of the hidden weights split into the first
    eye against rows 0 … 127 and the second eye against rows 128 … 255. -/
theorem hidden_apply (p : Fin 65536) (j : Fin 256) :
    val_main_v49 (F := Ideal) x0 x1 x2 x3 x4 x5 x6 x7 x8 x9 x10 x11 x12 x13 (ix2 p j)
      = hiddenAt (val_main_v16 (F := Ideal) x0 x2 x4 x5 : S65536x128.Idx → EReal) (val_main_v38 (F := Ideal) x1 x3 x8 x9 : S65536x128.Idx → EReal)
        (x6 : S128x128.Idx → EReal) (fun u => (x7 : S128.Idx → EReal) (ix1 u)) (x10 : S128x128.Idx → EReal) (fun u => (x11 : S128.Idx → EReal) (ix1 u))
        (lowBand (x12 : S256x256.Idx → EReal)) (highBand (x12 : S256x256.Idx → EReal)) (fun j => (x13 : S256.Idx → EReal) (ix1 j)) p j := by
  have el : ∀ q : Fin 256, lidx_main_v45 (ix2 p j) q = ix2 p q := fun q => funext fun a => Fin.ext (by
    match a with
    | ⟨0, _⟩ => rfl
    | ⟨1, _⟩ => rfl)
  have er : ∀ q : Fin 256, ridx_main_v45 (ix2 p j) q = ix2 q j := fun q => funext fun a => Fin.ext (by
    match a with
    | ⟨0, _⟩ => rfl
    | ⟨1, _⟩ => rfl)
  have eb : idx_main_v46 (idx_main_v47 (ix2 p j)) = ix1 j := funext fun a => Fin.ext (by
    match a with
    | ⟨0, _⟩ => rfl)
  rw [val_main_v49_apply, val_main_v48_apply, val_main_v45_apply, val_main_v47_apply, val_main_v46_apply, val_main_call4_v0_apply, val_main_call4_cst_apply]
  simp only [el, er, eb]
  rw [sum_two_bands]
  unfold val_main_v44
  simp only [Cert.TwoBands.concat_lo, Cert.TwoBands.concat_hi, eye0_apply, eye1_apply]
  rfl

/-- Output u of segment p: the hidden units against the output weights, plus the bias. -/
theorem out_apply (p : Fin 65536) (u : Fin 128) :
    val_main_v53 (F := Ideal) x0 x1 x2 x3 x4 x5 x6 x7 x8 x9 x10 x11 x12 x13 x14 x15 (ix2 p u)
      = mlpAt (val_main_v16 (F := Ideal) x0 x2 x4 x5 : S65536x128.Idx → EReal) (val_main_v38 (F := Ideal) x1 x3 x8 x9 : S65536x128.Idx → EReal)
        (x6 : S128x128.Idx → EReal) (fun u => (x7 : S128.Idx → EReal) (ix1 u)) (x10 : S128x128.Idx → EReal) (fun u => (x11 : S128.Idx → EReal) (ix1 u))
        (lowBand (x12 : S256x256.Idx → EReal)) (highBand (x12 : S256x256.Idx → EReal)) (fun j => (x13 : S256.Idx → EReal) (ix1 j))
        (x14 : S256x128.Idx → EReal) (fun u => (x15 : S128.Idx → EReal) (ix1 u)) p u := by
  have el : ∀ q : Fin 256, lidx_main_v50 (ix2 p u) q = ix2 p q := fun q => funext fun a => Fin.ext (by
    match a with
    | ⟨0, _⟩ => rfl
    | ⟨1, _⟩ => rfl)
  have er : ∀ q : Fin 256, ridx_main_v50 (ix2 p u) q = ix2 q u := fun q => funext fun a => Fin.ext (by
    match a with
    | ⟨0, _⟩ => rfl
    | ⟨1, _⟩ => rfl)
  have eb : idx_main_v51 (idx_main_v52 (ix2 p u)) = ix1 u := funext fun a => Fin.ext (by
    match a with
    | ⟨0, _⟩ => rfl)
  rw [val_main_v53_apply, val_main_v50_apply, val_main_v52_apply, val_main_v51_apply]
  simp only [el, er, eb, hidden_apply]
  rfl

/-- The reference's result is the specification's perceptron of the two eyes' segment means. -/
theorem result_eq :
    val_main_v53 (F := Ideal) x0 x1 x2 x3 x4 x5 x6 x7 x8 x9 x10 x11 x12 x13 x14 x15
      = mlp (val_main_v16 (F := Ideal) x0 x2 x4 x5 : S65536x128.Idx → EReal) (val_main_v38 (F := Ideal) x1 x3 x8 x9 : S65536x128.Idx → EReal)
        (x6 : S128x128.Idx → EReal) (fun u => (x7 : S128.Idx → EReal) (ix1 u)) (x10 : S128x128.Idx → EReal) (fun u => (x11 : S128.Idx → EReal) (ix1 u))
        (lowBand (x12 : S256x256.Idx → EReal)) (highBand (x12 : S256x256.Idx → EReal)) (fun j => (x13 : S256.Idx → EReal) (ix1 j))
        (x14 : S256x128.Idx → EReal) (fun u => (x15 : S128.Idx → EReal) (ix1 u)) := by
  funext i
  obtain ⟨p, u, rfl⟩ : ∃ (p : Fin 65536) (u : Fin 128), i = ix2 p u := ⟨i 0, i 1, eq_ix2 i⟩
  exact out_apply x0 x1 x2 x3 x4 x5 x6 x7 x8 x9 x10 x11 x12 x13 x14 x15 p u

end

end Cert.ReferenceIdeal.Tail

end
-- ==== Proof.lean ====
/-
  Two "eyes" of a graph network against their plain reference, on the extended reals.

  Each eye applies a dense layer with positive part to every one of 1048576 nodes (64 inputs, 128 features), averages
  the node features per segment over 65536 segments (segments given by an array of ids; an empty segment divides by
  one), and applies a second dense layer with positive part to the means.  The two eyes' 128 features per segment
  feed a hidden layer of 256 units with positive part and a linear output layer of 128 units.

  One program computes this in two stages with the averaging between them on the host: the first stage forms both
  eyes' node layers a block of 8192 nodes at a time; the second forms the whole perceptron a block of 4096 segments
  at a time, taking the hidden weights as two bands of 128 rows and adding the two eyes' products.  The other lays the
  two eyes' features side by side and contracts all 256 rows of the hidden weights at once.  Roundings to a narrower
  float format are the identity on the extended reals, so the two differ only in how a sum over 256 indices is
  grouped, and such a sum is the sum over its first 128 plus the sum over its last 128 indices.  Nothing in the
  argument needs the inputs to be finite.

  The claims: each program terminates without fault from any memory and leaves its arguments unchanged; no rewrite
  separates the word-level program from its idealization, so that conjunct is empty; and the two idealized programs,
  run from memories that agree on the sixteen arguments, end with equal result arrays.
-/
import proofs.«131063_j79010218377372_2_alg».proof.Defs
import proofs.«131063_j79010218377372_2_alg».proof.Proof.Gen.Kernel
import proofs.«131063_j79010218377372_2_alg».proof.Proof.Gen.Kernel.Skeleton
import proofs.«131063_j79010218377372_2_alg».proof.Proof.Gen.Kernel.Launch
import proofs.«131063_j79010218377372_2_alg».proof.Proof.Gen.Kernel.Points
import proofs.«131063_j79010218377372_2_alg».proof.Proof.Gen.Kernel.Frame
import proofs.«131063_j79010218377372_2_alg».proof.Proof.Gen.KernelIdeal
import proofs.«131063_j79010218377372_2_alg».proof.Proof.Gen.KernelIdeal.Skeleton
import proofs.«131063_j79010218377372_2_alg».proof.Proof.Gen.KernelIdeal.Launch
import proofs.«131063_j79010218377372_2_alg».proof.Proof.Gen.KernelIdeal.Points
import proofs.«131063_j79010218377372_2_alg».proof.Proof.Gen.KernelIdeal.Frame
import proofs.«131063_j79010218377372_2_alg».proof.Proof.Gen.ReferenceIdeal
import proofs.«131063_j79010218377372_2_alg».proof.Proof.Gen.Pre_finite_inputs
import proofs.«131063_j79010218377372_2_alg».proof.Proof.Gen.ReferenceIdeal.Run
import proofs.«131063_j79010218377372_2_alg».proof.Proof.Gen.ReferenceIdeal.Read
import proofs.«131063_j79010218377372_2_alg».proof.Proof.KernelRun
import proofs.«131063_j79010218377372_2_alg».proof.Proof.Compose
import proofs.«131063_j79010218377372_2_alg».proof.Proof.RefFirst
import proofs.«131063_j79010218377372_2_alg».proof.Proof.RefTail
import Idealize.ShloMosaic.Adequacy
import Idealize.ShloMosaic.Init

noncomputable section

namespace Cert.Proof

open Idealize.ShloMosaic Idealize.SL.Sem

/-- The word-level program terminates without fault and leaves its arguments unchanged. -/
theorem frame_word : Cert.frame_Kernel := fun m ρ _ => Cert.Kernel.Gen.frame m ρ

/-- So does its idealization. -/
theorem frame_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The per-segment averaging is one chain of operations in both programs. -/
theorem segMean_eq (h : (⟨Cert.KernelIdeal.S1048576x128, .f32⟩ : BufTy).Contents (Elt Ideal)) (idx : (⟨Cert.KernelIdeal.S1048576, .i32⟩ : BufTy).Contents (Elt Ideal)) :
    Cert.ReferenceIdeal.Tail.segMean (F := Ideal) h idx = Cert.KernelIdeal.Between.segMean (F := Ideal) h idx := rfl

/-- From memories that agree on the arguments both idealized programs end with the result array at the perceptron of the
    two eyes' per-segment means of their node layers: the two-stage program by its stages' blocks, the reference
    operation by operation, the hidden layer's sum over 256 rows split into its two bands of 128. -/
theorem algebraic : Cert.algebraic_KernelIdeal_ReferenceIdeal := by
  intro m ρ m' ρ' _ hagree
  refine ⟨fun c => Cert.KernelIdeal.Whole.value m c, ?_, ?_⟩
  · exact (θ_run Cert.KernelIdeal.defs _ _).mono
      (fun r h c => ⟨(h c).1.trans (Cert.KernelIdeal.Whole.result_eq m ρ c), (h c).2⟩)
      (Cert.KernelIdeal.Result.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15⟩ := hagree c
    refine (Cert.ReferenceIdeal.Read.val_main_v53_eq (F := Ideal) _ _ _ _ _ _ _ _ _ _ _ _ _ _ _ _).trans ?_
    rw [Cert.ReferenceIdeal.Tail.result_eq, Cert.ReferenceIdeal.Tail.mean0, Cert.ReferenceIdeal.Tail.mean1,
      Cert.ReferenceIdeal.Layer.first_eye0, Cert.ReferenceIdeal.Layer.first_eye1, segMean_eq, segMean_eq,
      e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_word, frame_ideal, frame_reference, preserves, algebraic⟩

end Cert.Proof

end
